-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel

variable [Facts]

def fn {F : FTy → Type} [FloatOps F] (main_arg0 : FVec F S4x2048x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  main_v3
-- ==== Kernel.lean ====
abbrev S4x2048x4096 : Shape := ⟨3, ![4, 2048, 4096]⟩
abbrev S64x64 : Shape := ⟨2, ![64, 64]⟩
abbrev S8192x4096 : Shape := ⟨2, ![8192, 4096]⟩
abbrev S128x4096 : Shape := ⟨2, ![128, 4096]⟩
abbrev S128x64x64 : Shape := ⟨3, ![128, 64, 64]⟩
abbrev S8192x64 : Shape := ⟨2, ![8192, 64]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S64x64, .f32⟩
  | .hbm, ⟨2, _⟩ => ⟨S8192x4096, .f32⟩
  | .hbm, ⟨3, _⟩ => ⟨S8192x4096, .f32⟩
  | .hbm, ⟨4, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S64x64, .f32⟩
  | .local _ .vmem, ⟨3, _⟩ => ⟨S128x4096, .f32⟩
  | .local _ .vmem, ⟨4, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  shapeCasts_S128x4096_S128x64x64 : S128x4096.ShapeCasts S128x64x64
  shapeCasts_S128x64x64_S8192x64 : S128x64x64.ShapeCasts S8192x64
  shapeCasts_S8192x64_S128x64x64 : S8192x64.ShapeCasts S128x64x64
  transposes_S128x64x64_p0_2_1_S128x64x64 : S128x64x64.Transposes [0, 2, 1] S128x64x64
  shapeCasts_S128x64x64_S128x4096 : S128x64x64.ShapeCasts S128x4096
  shapeCasts_S8192x4096_S4x2048x4096 : S8192x4096.ShapeCasts S4x2048x4096
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8192x4096x1 : Shape := ⟨3, ![8192, 4096, 1]⟩
abbrev S8192x2048x2x1 : Shape := ⟨4, ![8192, 2048, 2, 1]⟩
abbrev S8192x2048x1x1 : Shape := ⟨4, ![8192, 2048, 1, 1]⟩
abbrev S8192x2048x1 : Shape := ⟨3, ![8192, 2048, 1]⟩
abbrev S8192x2048x2 : Shape := ⟨3, ![8192, 2048, 2]⟩
abbrev S8192x1024x2x2 : Shape := ⟨4, ![8192, 1024, 2, 2]⟩
abbrev S8192x1024x1x2 : Shape := ⟨4, ![8192, 1024, 1, 2]⟩
abbrev S8192x1024x2 : Shape := ⟨3, ![8192, 1024, 2]⟩
abbrev S8192x1024x4 : Shape := ⟨3, ![8192, 1024, 4]⟩
abbrev S8192x512x2x4 : Shape := ⟨4, ![8192, 512, 2, 4]⟩
abbrev S8192x512x1x4 : Shape := ⟨4, ![8192, 512, 1, 4]⟩
abbrev S8192x512x4 : Shape := ⟨3, ![8192, 512, 4]⟩
abbrev S8192x512x8 : Shape := ⟨3, ![8192, 512, 8]⟩
abbrev S8192x256x2x8 : Shape := ⟨4, ![8192, 256, 2, 8]⟩
abbrev S8192x256x1x8 : Shape := ⟨4, ![8192, 256, 1, 8]⟩
abbrev S8192x256x8 : Shape := ⟨3, ![8192, 256, 8]⟩
abbrev S8192x256x16 : Shape := ⟨3, ![8192, 256, 16]⟩
abbrev S8192x128x2x16 : Shape := ⟨4, ![8192, 128, 2, 16]⟩
abbrev S8192x128x1x16 : Shape := ⟨4, ![8192, 128, 1, 16]⟩
abbrev S8192x128x16 : Shape := ⟨3, ![8192, 128, 16]⟩
abbrev S8192x128x32 : Shape := ⟨3, ![8192, 128, 32]⟩
abbrev S8192x64x2x32 : Shape := ⟨4, ![8192, 64, 2, 32]⟩
abbrev S8192x64x1x32 : Shape := ⟨4, ![8192, 64, 1, 32]⟩
abbrev S8192x64x32 : Shape := ⟨3, ![8192, 64, 32]⟩
abbrev S8192x64x64 : Shape := ⟨3, ![8192, 64, 64]⟩
abbrev S8192x32x2x64 : Shape := ⟨4, ![8192, 32, 2, 64]⟩
abbrev S8192x32x1x64 : Shape := ⟨4, ![8192, 32, 1, 64]⟩
abbrev S8192x32x64 : Shape := ⟨3, ![8192, 32, 64]⟩
abbrev S8192x32x128 : Shape := ⟨3, ![8192, 32, 128]⟩
abbrev S8192x16x2x128 : Shape := ⟨4, ![8192, 16, 2, 128]⟩
abbrev S8192x16x1x128 : Shape := ⟨4, ![8192, 16, 1, 128]⟩
abbrev S8192x16x128 : Shape := ⟨3, ![8192, 16, 128]⟩
abbrev S8192x16x256 : Shape := ⟨3, ![8192, 16, 256]⟩
abbrev S8192x8x2x256 : Shape := ⟨4, ![8192, 8, 2, 256]⟩
abbrev S8192x8x1x256 : Shape := ⟨4, ![8192, 8, 1, 256]⟩
abbrev S8192x8x256 : Shape := ⟨3, ![8192, 8, 256]⟩
abbrev S8192x8x512 : Shape := ⟨3, ![8192, 8, 512]⟩
abbrev S8192x4x2x512 : Shape := ⟨4, ![8192, 4, 2, 512]⟩
abbrev S8192x4x1x512 : Shape := ⟨4, ![8192, 4, 1, 512]⟩
abbrev S8192x4x512 : Shape := ⟨3, ![8192, 4, 512]⟩
abbrev S8192x4x1024 : Shape := ⟨3, ![8192, 4, 1024]⟩
abbrev S8192x2x2x1024 : Shape := ⟨4, ![8192, 2, 2, 1024]⟩
abbrev S8192x2x1x1024 : Shape := ⟨4, ![8192, 2, 1, 1024]⟩
abbrev S8192x2x1024 : Shape := ⟨3, ![8192, 2, 1024]⟩
abbrev S8192x2x2048 : Shape := ⟨3, ![8192, 2, 2048]⟩
abbrev S8192x1x2x2048 : Shape := ⟨4, ![8192, 1, 2, 2048]⟩
abbrev S8192x1x1x2048 : Shape := ⟨4, ![8192, 1, 1, 2048]⟩
abbrev S8192x1x2048 : Shape := ⟨3, ![8192, 1, 2048]⟩
abbrev S8192x1x4096 : Shape := ⟨3, ![8192, 1, 4096]⟩
abbrev S_ : Shape := ⟨0, ![]⟩

abbrev nBuf : Space → Nat
  | .hbm => 102
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8192x4096x1, .f32⟩
  | .hbm, ⟨2, _⟩ => ⟨S8192x2048x2x1, .f32⟩
  | .hbm, ⟨3, _⟩ => ⟨S8192x2048x1x1, .f32⟩
  | .hbm, ⟨4, _⟩ => ⟨S8192x2048x1, .f32⟩
  | .hbm, ⟨5, _⟩ => ⟨S8192x2048x1x1, .f32⟩
  | .hbm, ⟨6, _⟩ => ⟨S8192x2048x1, .f32⟩
  | .hbm, ⟨7, _⟩ => ⟨S8192x2048x1, .f32⟩
  | .hbm, ⟨8, _⟩ => ⟨S8192x2048x1, .f32⟩
  | .hbm, ⟨9, _⟩ => ⟨S8192x2048x2, .f32⟩
  | .hbm, ⟨10, _⟩ => ⟨S8192x1024x2x2, .f32⟩
  | .hbm, ⟨11, _⟩ => ⟨S8192x1024x1x2, .f32⟩
  | .hbm, ⟨12, _⟩ => ⟨S8192x1024x2, .f32⟩
  | .hbm, ⟨13, _⟩ => ⟨S8192x1024x1x2, .f32⟩
  | .hbm, ⟨14, _⟩ => ⟨S8192x1024x2, .f32⟩
  | .hbm, ⟨15, _⟩ => ⟨S8192x1024x2, .f32⟩
  | .hbm, ⟨16, _⟩ => ⟨S8192x1024x2, .f32⟩
  | .hbm, ⟨17, _⟩ => ⟨S8192x1024x4, .f32⟩
  | .hbm, ⟨18, _⟩ => ⟨S8192x512x2x4, .f32⟩
  | .hbm, ⟨19, _⟩ => ⟨S8192x512x1x4, .f32⟩
  | .hbm, ⟨20, _⟩ => ⟨S8192x512x4, .f32⟩
  | .hbm, ⟨21, _⟩ => ⟨S8192x512x1x4, .f32⟩
  | .hbm, ⟨22, _⟩ => ⟨S8192x512x4, .f32⟩
  | .hbm, ⟨23, _⟩ => ⟨S8192x512x4, .f32⟩
  | .hbm, ⟨24, _⟩ => ⟨S8192x512x4, .f32⟩
  | .hbm, ⟨25, _⟩ => ⟨S8192x512x8, .f32⟩
  | .hbm, ⟨26, _⟩ => ⟨S8192x256x2x8, .f32⟩
  | .hbm, ⟨27, _⟩ => ⟨S8192x256x1x8, .f32⟩
  | .hbm, ⟨28, _⟩ => ⟨S8192x256x8, .f32⟩
  | .hbm, ⟨29, _⟩ => ⟨S8192x256x1x8, .f32⟩
  | .hbm, ⟨30, _⟩ => ⟨S8192x256x8, .f32⟩
  | .hbm, ⟨31, _⟩ => ⟨S8192x256x8, .f32⟩
  | .hbm, ⟨32, _⟩ => ⟨S8192x256x8, .f32⟩
  | .hbm, ⟨33, _⟩ => ⟨S8192x256x16, .f32⟩
  | .hbm, ⟨34, _⟩ => ⟨S8192x128x2x16, .f32⟩
  | .hbm, ⟨35, _⟩ => ⟨S8192x128x1x16, .f32⟩
  | .hbm, ⟨36, _⟩ => ⟨S8192x128x16, .f32⟩
  | .hbm, ⟨37, _⟩ => ⟨S8192x128x1x16, .f32⟩
  | .hbm, ⟨38, _⟩ => ⟨S8192x128x16, .f32⟩
  | .hbm, ⟨39, _⟩ => ⟨S8192x128x16, .f32⟩
  | .hbm, ⟨40, _⟩ => ⟨S8192x128x16, .f32⟩
  | .hbm, ⟨41, _⟩ => ⟨S8192x128x32, .f32⟩
  | .hbm, ⟨42, _⟩ => ⟨S8192x64x2x32, .f32⟩
  | .hbm, ⟨43, _⟩ => ⟨S8192x64x1x32, .f32⟩
  | .hbm, ⟨44, _⟩ => ⟨S8192x64x32, .f32⟩
  | .hbm, ⟨45, _⟩ => ⟨S8192x64x1x32, .f32⟩
  | .hbm, ⟨46, _⟩ => ⟨S8192x64x32, .f32⟩
  | .hbm, ⟨47, _⟩ => ⟨S8192x64x32, .f32⟩
  | .hbm, ⟨48, _⟩ => ⟨S8192x64x32, .f32⟩
  | .hbm, ⟨49, _⟩ => ⟨S8192x64x64, .f32⟩
  | .hbm, ⟨50, _⟩ => ⟨S8192x32x2x64, .f32⟩
  | .hbm, ⟨51, _⟩ => ⟨S8192x32x1x64, .f32⟩
  | .hbm, ⟨52, _⟩ => ⟨S8192x32x64, .f32⟩
  | .hbm, ⟨53, _⟩ => ⟨S8192x32x1x64, .f32⟩
  | .hbm, ⟨54, _⟩ => ⟨S8192x32x64, .f32⟩
  | .hbm, ⟨55, _⟩ => ⟨S8192x32x64, .f32⟩
  | .hbm, ⟨56, _⟩ => ⟨S8192x32x64, .f32⟩
  | .hbm, ⟨57, _⟩ => ⟨S8192x32x128, .f32⟩
  | .hbm, ⟨58, _⟩ => ⟨S8192x16x2x128, .f32⟩
  | .hbm, ⟨59, _⟩ => ⟨S8192x16x1x128, .f32⟩
  | .hbm, ⟨60, _⟩ => ⟨S8192x16x128, .f32⟩
  | .hbm, ⟨61, _⟩ => ⟨S8192x16x1x128, .f32⟩
  | .hbm, ⟨62, _⟩ => ⟨S8192x16x128, .f32⟩
  | .hbm, ⟨63, _⟩ => ⟨S8192x16x128, .f32⟩
  | .hbm, ⟨64, _⟩ => ⟨S8192x16x128, .f32⟩
  | .hbm, ⟨65, _⟩ => ⟨S8192x16x256, .f32⟩
  | .hbm, ⟨66, _⟩ => ⟨S8192x8x2x256, .f32⟩
  | .hbm, ⟨67, _⟩ => ⟨S8192x8x1x256, .f32⟩
  | .hbm, ⟨68, _⟩ => ⟨S8192x8x256, .f32⟩
  | .hbm, ⟨69, _⟩ => ⟨S8192x8x1x256, .f32⟩
  | .hbm, ⟨70, _⟩ => ⟨S8192x8x256, .f32⟩
  | .hbm, ⟨71, _⟩ => ⟨S8192x8x256, .f32⟩
  | .hbm, ⟨72, _⟩ => ⟨S8192x8x256, .f32⟩
  | .hbm, ⟨73, _⟩ => ⟨S8192x8x512, .f32⟩
  | .hbm, ⟨74, _⟩ => ⟨S8192x4x2x512, .f32⟩
  | .hbm, ⟨75, _⟩ => ⟨S8192x4x1x512, .f32⟩
  | .hbm, ⟨76, _⟩ => ⟨S8192x4x512, .f32⟩
  | .hbm, ⟨77, _⟩ => ⟨S8192x4x1x512, .f32⟩
  | .hbm, ⟨78, _⟩ => ⟨S8192x4x512, .f32⟩
  | .hbm, ⟨79, _⟩ => ⟨S8192x4x512, .f32⟩
  | .hbm, ⟨80, _⟩ => ⟨S8192x4x512, .f32⟩
  | .hbm, ⟨81, _⟩ => ⟨S8192x4x1024, .f32⟩
  | .hbm, ⟨82, _⟩ => ⟨S8192x2x2x1024, .f32⟩
  | .hbm, ⟨83, _⟩ => ⟨S8192x2x1x1024, .f32⟩
  | .hbm, ⟨84, _⟩ => ⟨S8192x2x1024, .f32⟩
  | .hbm, ⟨85, _⟩ => ⟨S8192x2x1x1024, .f32⟩
  | .hbm, ⟨86, _⟩ => ⟨S8192x2x1024, .f32⟩
  | .hbm, ⟨87, _⟩ => ⟨S8192x2x1024, .f32⟩
  | .hbm, ⟨88, _⟩ => ⟨S8192x2x1024, .f32⟩
  | .hbm, ⟨89, _⟩ => ⟨S8192x2x2048, .f32⟩
  | .hbm, ⟨90, _⟩ => ⟨S8192x1x2x2048, .f32⟩
  | .hbm, ⟨91, _⟩ => ⟨S8192x1x1x2048, .f32⟩
  | .hbm, ⟨92, _⟩ => ⟨S8192x1x2048, .f32⟩
  | .hbm, ⟨93, _⟩ => ⟨S8192x1x1x2048, .f32⟩
  | .hbm, ⟨94, _⟩ => ⟨S8192x1x2048, .f32⟩
  | .hbm, ⟨95, _⟩ => ⟨S8192x1x2048, .f32⟩
  | .hbm, ⟨96, _⟩ => ⟨S8192x1x2048, .f32⟩
  | .hbm, ⟨97, _⟩ => ⟨S8192x1x4096, .f32⟩
  | .hbm, ⟨98, _⟩ => ⟨S4x2048x4096, .f32⟩
  | .hbm, ⟨99, _⟩ => ⟨S_, .f32⟩
  | .hbm, ⟨100, _⟩ => ⟨S4x2048x4096, .f32⟩
  | .hbm, ⟨101, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_cst : Ref sig .tc := ⟨.hbm, 99, rfl⟩
abbrev main_v98 : Ref sig .tc := ⟨.hbm, 100, rfl⟩
abbrev main_v99 : Ref sig .tc := ⟨.hbm, 101, rfl⟩

abbrev nD : Nat := 1
abbrev τ : Topo := Topo.v7x

variable {F : FTy → Type} [FloatOps F]

class Facts₀ : Prop where
  shapeCasts_S4x2048x4096_S8192x4096x1 : S4x2048x4096.ShapeCasts S8192x4096x1
  shapeCasts_S8192x4096x1_S8192x2048x2x1 : S8192x4096x1.ShapeCasts S8192x2048x2x1
  slices_S8192x2048x2x1_S8192x2048x1x1_0_0_0_0 : S8192x2048x2x1.Slices ![0, 0, 0, 0] S8192x2048x1x1
  shapeCasts_S8192x2048x1x1_S8192x2048x1 : S8192x2048x1x1.ShapeCasts S8192x2048x1
  slices_S8192x2048x2x1_S8192x2048x1x1_0_0_1_0 : S8192x2048x2x1.Slices ![0, 0, 1, 0] S8192x2048x1x1
  concatenates_S8192x2048x1_S8192x2048x1_S8192x2048x2_d2 : Shape.Concatenates [S8192x2048x1, S8192x2048x1] S8192x2048x2 2
  shapeCasts_S8192x2048x2_S8192x1024x2x2 : S8192x2048x2.ShapeCasts S8192x1024x2x2
  slices_S8192x1024x2x2_S8192x1024x1x2_0_0_0_0 : S8192x1024x2x2.Slices ![0, 0, 0, 0] S8192x1024x1x2
  shapeCasts_S8192x1024x1x2_S8192x1024x2 : S8192x1024x1x2.ShapeCasts S8192x1024x2
  slices_S8192x1024x2x2_S8192x1024x1x2_0_0_1_0 : S8192x1024x2x2.Slices ![0, 0, 1, 0] S8192x1024x1x2
  concatenates_S8192x1024x2_S8192x1024x2_S8192x1024x4_d2 : Shape.Concatenates [S8192x1024x2, S8192x1024x2] S8192x1024x4 2
  shapeCasts_S8192x1024x4_S8192x512x2x4 : S8192x1024x4.ShapeCasts S8192x512x2x4
  slices_S8192x512x2x4_S8192x512x1x4_0_0_0_0 : S8192x512x2x4.Slices ![0, 0, 0, 0] S8192x512x1x4
  shapeCasts_S8192x512x1x4_S8192x512x4 : S8192x512x1x4.ShapeCasts S8192x512x4
  slices_S8192x512x2x4_S8192x512x1x4_0_0_1_0 : S8192x512x2x4.Slices ![0, 0, 1, 0] S8192x512x1x4
  concatenates_S8192x512x4_S8192x512x4_S8192x512x8_d2 : Shape.Concatenates [S8192x512x4, S8192x512x4] S8192x512x8 2
  shapeCasts_S8192x512x8_S8192x256x2x8 : S8192x512x8.ShapeCasts S8192x256x2x8
  slices_S8192x256x2x8_S8192x256x1x8_0_0_0_0 : S8192x256x2x8.Slices ![0, 0, 0, 0] S8192x256x1x8
  shapeCasts_S8192x256x1x8_S8192x256x8 : S8192x256x1x8.ShapeCasts S8192x256x8
  slices_S8192x256x2x8_S8192x256x1x8_0_0_1_0 : S8192x256x2x8.Slices ![0, 0, 1, 0] S8192x256x1x8
  concatenates_S8192x256x8_S8192x256x8_S8192x256x16_d2 : Shape.Concatenates [S8192x256x8, S8192x256x8] S8192x256x16 2
  shapeCasts_S8192x256x16_S8192x128x2x16 : S8192x256x16.ShapeCasts S8192x128x2x16
  slices_S8192x128x2x16_S8192x128x1x16_0_0_0_0 : S8192x128x2x16.Slices ![0, 0, 0, 0] S8192x128x1x16
  shapeCasts_S8192x128x1x16_S8192x128x16 : S8192x128x1x16.ShapeCasts S8192x128x16
  slices_S8192x128x2x16_S8192x128x1x16_0_0_1_0 : S8192x128x2x16.Slices ![0, 0, 1, 0] S8192x128x1x16
  concatenates_S8192x128x16_S8192x128x16_S8192x128x32_d2 : Shape.Concatenates [S8192x128x16, S8192x128x16] S8192x128x32 2
  shapeCasts_S8192x128x32_S8192x64x2x32 : S8192x128x32.ShapeCasts S8192x64x2x32
  slices_S8192x64x2x32_S8192x64x1x32_0_0_0_0 : S8192x64x2x32.Slices ![0, 0, 0, 0] S8192x64x1x32
  shapeCasts_S8192x64x1x32_S8192x64x32 : S8192x64x1x32.ShapeCasts S8192x64x32
  slices_S8192x64x2x32_S8192x64x1x32_0_0_1_0 : S8192x64x2x32.Slices ![0, 0, 1, 0] S8192x64x1x32
  concatenates_S8192x64x32_S8192x64x32_S8192x64x64_d2 : Shape.Concatenates [S8192x64x32, S8192x64x32] S8192x64x64 2
  shapeCasts_S8192x64x64_S8192x32x2x64 : S8192x64x64.ShapeCasts S8192x32x2x64
  slices_S8192x32x2x64_S8192x32x1x64_0_0_0_0 : S8192x32x2x64.Slices ![0, 0, 0, 0] S8192x32x1x64
  shapeCasts_S8192x32x1x64_S8192x32x64 : S8192x32x1x64.ShapeCasts S8192x32x64
  slices_S8192x32x2x64_S8192x32x1x64_0_0_1_0 : S8192x32x2x64.Slices ![0, 0, 1, 0] S8192x32x1x64
  concatenates_S8192x32x64_S8192x32x64_S8192x32x128_d2 : Shape.Concatenates [S8192x32x64, S8192x32x64] S8192x32x128 2
  shapeCasts_S8192x32x128_S8192x16x2x128 : S8192x32x128.ShapeCasts S8192x16x2x128
  slices_S8192x16x2x128_S8192x16x1x128_0_0_0_0 : S8192x16x2x128.Slices ![0, 0, 0, 0] S8192x16x1x128
  shapeCasts_S8192x16x1x128_S8192x16x128 : S8192x16x1x128.ShapeCasts S8192x16x128
  slices_S8192x16x2x128_S8192x16x1x128_0_0_1_0 : S8192x16x2x128.Slices ![0, 0, 1, 0] S8192x16x1x128
  concatenates_S8192x16x128_S8192x16x128_S8192x16x256_d2 : Shape.Concatenates [S8192x16x128, S8192x16x128] S8192x16x256 2
  shapeCasts_S8192x16x256_S8192x8x2x256 : S8192x16x256.ShapeCasts S8192x8x2x256
  slices_S8192x8x2x256_S8192x8x1x256_0_0_0_0 : S8192x8x2x256.Slices ![0, 0, 0, 0] S8192x8x1x256
  shapeCasts_S8192x8x1x256_S8192x8x256 : S8192x8x1x256.ShapeCasts S8192x8x256
  slices_S8192x8x2x256_S8192x8x1x256_0_0_1_0 : S8192x8x2x256.Slices ![0, 0, 1, 0] S8192x8x1x256
  concatenates_S8192x8x256_S8192x8x256_S8192x8x512_d2 : Shape.Concatenates [S8192x8x256, S8192x8x256] S8192x8x512 2
  shapeCasts_S8192x8x512_S8192x4x2x512 : S8192x8x512.ShapeCasts S8192x4x2x512
  slices_S8192x4x2x512_S8192x4x1x512_0_0_0_0 : S8192x4x2x512.Slices ![0, 0, 0, 0] S8192x4x1x512
  shapeCasts_S8192x4x1x512_S8192x4x512 : S8192x4x1x512.ShapeCasts S8192x4x512
  slices_S8192x4x2x512_S8192x4x1x512_0_0_1_0 : S8192x4x2x512.Slices ![0, 0, 1, 0] S8192x4x1x512
  concatenates_S8192x4x512_S8192x4x512_S8192x4x1024_d2 : Shape.Concatenates [S8192x4x512, S8192x4x512] S8192x4x1024 2
  shapeCasts_S8192x4x1024_S8192x2x2x1024 : S8192x4x1024.ShapeCasts S8192x2x2x1024
  slices_S8192x2x2x1024_S8192x2x1x1024_0_0_0_0 : S8192x2x2x1024.Slices ![0, 0, 0, 0] S8192x2x1x1024
  shapeCasts_S8192x2x1x1024_S8192x2x1024 : S8192x2x1x1024.ShapeCasts S8192x2x1024
  slices_S8192x2x2x1024_S8192x2x1x1024_0_0_1_0 : S8192x2x2x1024.Slices ![0, 0, 1, 0] S8192x2x1x1024
  concatenates_S8192x2x1024_S8192x2x1024_S8192x2x2048_d2 : Shape.Concatenates [S8192x2x1024, S8192x2x1024] S8192x2x2048 2
  shapeCasts_S8192x2x2048_S8192x1x2x2048 : S8192x2x2048.ShapeCasts S8192x1x2x2048
  slices_S8192x1x2x2048_S8192x1x1x2048_0_0_0_0 : S8192x1x2x2048.Slices ![0, 0, 0, 0] S8192x1x1x2048
  shapeCasts_S8192x1x1x2048_S8192x1x2048 : S8192x1x1x2048.ShapeCasts S8192x1x2048
  slices_S8192x1x2x2048_S8192x1x1x2048_0_0_1_0 : S8192x1x2x2048.Slices ![0, 0, 1, 0] S8192x1x1x2048
  concatenates_S8192x1x2048_S8192x1x2048_S8192x1x4096_d2 : Shape.Concatenates [S8192x1x2048, S8192x1x2048] S8192x1x4096 2
  shapeCasts_S8192x1x4096_S4x2048x4096 : S8192x1x4096.ShapeCasts S4x2048x4096
  bcast_S_S4x2048x4096 : S_.BroadcastsInDim S4x2048x4096 (![] : Fin 0 → Fin S4x2048x4096.rank)

variable [Facts₀]

class Facts : Prop extends Facts₀ where

variable [Facts]
-- ==== Proof.Spec.lean ====
/-
  The specification both programs are read against, and the constants they spell.

  A row of 4096 numbers is viewed as a 64 x 64 matrix X, entry (i, j) at position 64 i + j.  The kernel forms
  (H/8) X (H/8) for a fixed 64 x 64 matrix H, one product at a time: entry (l, m) of its result is
      sum over i of (sum over j of X(i, j) * (H(j, m) * e)) * (H(i, l) * e),        e = 1/8,
  written at position 64 l + m (`twoSided`).  The reference runs the twelve butterfly stages of the fast
  Walsh-Hadamard transform on the row (`bfly`) and scales by 1/64.  `sylvB` is the sign pattern of the
  Sylvester matrix: entry (a, b) is negative exactly when a and b share an odd number of binary digits.
-/
import Idealize.ShloMosaic.PureOps.Ideal
import Idealize.ShloMosaic.Lib.ValueIdx

noncomputable section

namespace Cert.Wht

open Idealize.ShloMosaic Idealize.ShloMosaic.ValueIdx

/-- The argument and the result: 4 x 2048 rows of 4096 numbers. -/
abbrev SX : Shape := ⟨3, ![4, 2048, 4096]⟩
/-- The 64 x 64 matrix. -/
abbrev SH : Shape := ⟨2, ![64, 64]⟩

/-- Position `64 i + j` of a row. -/
def pos (i j : Fin 64) : Fin 4096 := ⟨64 * i.val + j.val, by omega⟩
/-- The leading base-64 digit of a position, -/
def hi (n : Fin 4096) : Fin 64 := ⟨n.val / 64, by omega⟩
/-- and the trailing one. -/
def lo (n : Fin 4096) : Fin 64 := ⟨n.val % 64, by omega⟩

/-- The two-sided product, one matrix product after the other, each factor scaled by `e`: at position
    `64 l + m` of row `(a, s)`, the sum over `i` of (the sum over `j` of `x(a, s, 64 i + j) * (h(j, m) * e)`)
    times `h(i, l) * e`. -/
def twoSided (x : SX.Idx → EReal) (h : SH.Idx → EReal) (e : EReal) : SX.Idx → EReal := fun j =>
  ∑ i : Fin 64, (∑ jj : Fin 64, x (ix3 (j 0) (j 1) (pos i jj)) * (h (ix2 jj (lo (j 2))) * e)) * (h (ix2 i (hi (j 2))) * e)

/-- One butterfly stage at width `k`: rows `2 p` and `2 p + 1` of width `k` become row `p` of width `2 k`, their sum in
    the first half and their difference in the second. -/
def bstep (k : ℕ) (Y : ℕ → ℕ → ℝ) (p q : ℕ) : ℝ :=
  if q < k then Y (2 * p) q + Y (2 * p + 1) q else Y (2 * p) (q - k) - Y (2 * p + 1) (q - k)

/-- The row after `s` butterfly stages, as `4096 / 2 ^ s` rows of width `2 ^ s`. -/
def bfly (f : ℕ → ℝ) : ℕ → ℕ → ℕ → ℝ
  | 0 => fun p _ => f p
  | s + 1 => bstep (2 ^ s) (bfly f s)

/-- Row `(a, s)` of a real array, as a function of the position (zero past the row's end). -/
def rowOf (xr : SX.Idx → ℝ) (a : Fin 4) (s : Fin 2048) : ℕ → ℝ :=
  fun n => if hn : n < 4096 then xr (ix3 a s ⟨n, hn⟩) else 0

/-- The sign pattern on `s` binary digits: true when `a` and `b` share an odd number of digits among their last `s`. -/
def sylvB : ℕ → ℕ → ℕ → Bool
  | 0, _, _ => false
  | s + 1, a, b => xor (decide (a / 2 ^ s % 2 = 1) && decide (b / 2 ^ s % 2 = 1)) (sylvB s (a % 2 ^ s) (b % 2 ^ s))

/-- The Sylvester matrix of order 64, entries 1 and -1. -/
def sylv (a b : ℕ) : ℝ := if sylvB 6 a b then -1 else 1

/-! ## The constants the programs spell -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul, -EReal.coe_neg]; norm_num

theorem ofBits_eighth : Ideal.ofBits .f32 0x3E000000#32 = ((1 / 8 : ℝ) : EReal) := by
  simp [Ideal.ofBits, Ideal.ieee, -EReal.coe_mul]; norm_num

theorem ofBits_sixtyfourth : Ideal.ofBits .f32 0x3C800000#32 = ((1 / 64 : ℝ) : EReal) := by
  simp [Ideal.ofBits, Ideal.ieee, -EReal.coe_mul]; norm_num

end Cert.Wht

end
-- ==== Proof.KernelLayout.lean ====
/-
  The layout operations of the kernel's body, each read at an index given by its coordinates.

  A block is 128 rows of 4096 numbers.  The body views each row as a 64 x 64 matrix (entry (i, j) at position 64 i + j),
  stacks the 128 matrices' rows into 8192 rows of 64 (row i of matrix r is row 64 r + i), multiplies on the right by a
  64 x 64 matrix, transposes each 64 x 64 matrix, and goes back the same way.  Here: each change of arrangement moves an
  entry where the row-major position says, the transpose swaps the two inner coordinates, and a product into the zero
  accumulator is the sum over the one contracted coordinate of left entry times right entry.
-/
import proofs.«177755_j40243843564261_2_alg».proof.Proof.Gen.KernelIdeal
import proofs.«177755_j40243843564261_2_alg».proof.Proof.Spec
import Idealize.ShloMosaic.Lib.Pipeline.Value
import Idealize.ShloMosaic.Lib.ValueIdx
import Idealize.ShloMosaic.PureOps.Ideal.Laws

noncomputable section

namespace Cert.KernelIdeal.HValue

open Cert.KernelIdeal Idealize.ShloMosaic Idealize.ShloMosaic.ValueIdx
open Cert.Wht (pos hi lo)

/-- Row `64 r + i` of the 8192-row arrangement: row `r` of the block, row `i` of its 64 x 64 matrix. -/
def row (r : Fin 128) (i : Fin 64) : Fin 8192 := ⟨64 * r.val + i.val, by omega⟩

variable {α : Type}

/-- A row of 4096 read as a 64 x 64 matrix: entry `(i, j)` is position `64 i + j`. -/
theorem cast_from_row (v : S128x4096.Idx → α) (h : S128x4096.ShapeCasts S128x64x64) (r : Fin 128) (i j : Fin 64) :
    shapeCast S128x64x64 v h (ix3 r i j) = v (ix2 r (pos i j)) := by
  refine shapeCast_apply v h (ix3 r i j) (ix2 r (pos i j)) ?_
  rw [Shape.rowMajor_val_two, Shape.rowMajor_val_three]
  show r.val * 4096 + (64 * i.val + j.val) = (r.val * 64 + i.val) * 64 + j.val
  omega

/-- The matrices' rows stacked: row `i` of matrix `r` is row `64 r + i`. -/
theorem cast_to_rows (v : S128x64x64.Idx → α) (h : S128x64x64.ShapeCasts S8192x64) (r : Fin 128) (i c : Fin 64) :
    shapeCast S8192x64 v h (ix2 (row r i) c) = v (ix3 r i c) := by
  refine shapeCast_apply v h (ix2 (row r i) c) (ix3 r i c) ?_
  rw [Shape.rowMajor_val_two, Shape.rowMajor_val_three]
  show (r.val * 64 + i.val) * 64 + c.val = (64 * r.val + i.val) * 64 + c.val
  omega

/-- And back. -/
theorem cast_from_rows (v : S8192x64.Idx → α) (h : S8192x64.ShapeCasts S128x64x64) (r : Fin 128) (i c : Fin 64) :
    shapeCast S128x64x64 v h (ix3 r i c) = v (ix2 (row r i) c) := by
  refine shapeCast_apply v h (ix3 r i c) (ix2 (row r i) c) ?_
  rw [Shape.rowMajor_val_two, Shape.rowMajor_val_three]
  show (64 * r.val + i.val) * 64 + c.val = (r.val * 64 + i.val) * 64 + c.val
  omega

/-- A 64 x 64 matrix written out as a row of 4096: position `n` holds entry `(n / 64, n % 64)`. -/
theorem cast_to_row (v : S128x64x64.Idx → α) (h : S128x64x64.ShapeCasts S128x4096) (r : Fin 128) (n : Fin 4096) :
    shapeCast S128x4096 v h (ix2 r n) = v (ix3 r (hi n) (lo n)) := by
  refine shapeCast_apply v h (ix2 r n) (ix3 r (hi n) (lo n)) ?_
  rw [Shape.rowMajor_val_two, Shape.rowMajor_val_three]
  show (r.val * 64 + n.val / 64) * 64 + n.val % 64 = r.val * 4096 + n.val
  omega

/-- The transpose of each matrix: entry `(a, b)` of the result is entry `(b, a)` of the operand. -/
theorem transpose_entry (v : S128x64x64.Idx → α) (h : S128x64x64.Transposes [0, 2, 1] S128x64x64) (r : Fin 128) (a b : Fin 64) :
    transpose S128x64x64 [0, 2, 1] v h (ix3 r a b) = v (ix3 r b a) := by
  refine transpose_apply [0, 2, 1] v h (ix3 r a b) (ix3 r b a) ?_
  intro d
  match d with
  | ⟨0, _⟩ => rfl
  | ⟨1, _⟩ => rfl
  | ⟨2, _⟩ => rfl

/-- The dimension record of both products: rows by a 64-long contraction by columns. -/
abbrev D : DotDims S8192x64 S64x64 S8192x64 := dot_S8192x64_S64x64_S8192x64_1_0_0_1_n_n

theorem D_lhs (j : S8192x64.Idx) (k : Fin 64) :
    D.lhsIdx j ((contrEquiv1 D 64 rfl rfl).symm k) = ix2 (j 0) k := by
  funext a; apply Fin.ext
  match a with
  | ⟨0, _⟩ => simp [DotDims.lhsIdx, D, dot_S8192x64_S64x64_S8192x64_1_0_0_1_n_n]; rfl
  | ⟨1, _⟩ =>
    exact (DotDims.lhsIdx_val_of_single (d := D) (cl := (1 : Fin 2)) rfl j ((contrEquiv1 D 64 rfl rfl).symm k)).trans
      (contrEquiv1_symm_val D 64 rfl rfl k)

theorem D_rhs (j : S8192x64.Idx) (k : Fin 64) :
    D.rhsIdx j ((contrEquiv1 D 64 rfl rfl).symm k) = ix2 k (j 1) := by
  funext a; apply Fin.ext
  match a with
  | ⟨0, _⟩ =>
    exact (DotDims.rhsIdx_val_of_single (d := D) (cr := (0 : Fin 2)) rfl j ((contrEquiv1 D 64 rfl rfl).symm k)).trans
      (contrEquiv1_symm_val D 64 rfl rfl k)
  | ⟨1, _⟩ => simp [DotDims.rhsIdx, D, dot_S8192x64_S64x64_S8192x64_1_0_0_1_n_n]; rfl

/-- A product into the zero accumulator, at row `R` and column `c`: the sum over the contracted coordinate. -/
theorem matmul_entry {φ₁ φ₂ : FTy} (A : FVec Ideal S8192x64 φ₁) (B : FVec Ideal S64x64 φ₂) (R : Fin 8192) (c : Fin 64) :
    matmul D none A B (constant (F := Ideal) S8192x64 .f32 0x00000000#32) (ix2 R c) = ∑ k : Fin 64, A (ix2 R k) * B (ix2 k c) := by
  refine (Ideal.matmul_constant_zero_apply D none A B (ix2 R c)).trans ?_
  rw [← Equiv.sum_comp (contrEquiv1 D 64 rfl rfl).symm]
  refine Finset.sum_congr rfl fun k _ => ?_
  rw [D_lhs, D_rhs]
  rfl

end Cert.KernelIdeal.HValue

end
-- ==== Proof.KernelEntry.lean ====
/-
  What the kernel's body stores, entry by entry.

  With X a row of the block read as a 64 x 64 matrix and Hs the loaded matrix scaled by one eighth, the body forms
  A = X Hs, then Y = Aᵀ Hs, and stores Yᵀ = Hsᵀ X Hs: the entry at position 64 l + m is
      sum over i of (sum over j of X(i, j) Hs(j, m)) Hs(i, l).
  A change of float format is the identity on the extended reals, so the two narrowings leave the entries as they are.
-/
import proofs.«177755_j40243843564261_2_alg».proof.Proof.KernelLayout
import proofs.«177755_j40243843564261_2_alg».proof.Proof.Gen.KernelIdeal.Skeleton

noncomputable section

namespace Cert.KernelIdeal.HValue

open Cert.KernelIdeal Cert.KernelIdeal.Gen Idealize.ShloMosaic Idealize.ShloMosaic.ValueIdx
open Cert.Wht (pos hi lo)

/-- The scale both products carry: the word the program spells for one eighth. -/
abbrev eighth : EReal := Ideal.ofBits .f32 0x3E000000#32

/-- WHAT THE BODY STORES, at row `r` and position `n = 64 l + m` of the block: with `X` the row read as a 64 x 64 matrix and
    `Hs = h0 * e`, the first product is `A = X Hs` (entry `(i, m)`: the sum over `j` of `X(i, j) Hs(j, m)`), the second takes the
    transpose of `A` on the left, `Y = Aᵀ Hs` (entry `(m, l)`: the sum over `i` of `A(i, m) Hs(i, l)`), and the stored matrix is
    the transpose of `Y`: entry `(l, m)`, at position `64 l + m`. -/
theorem pay_entry (x0 : Vec Ideal S128x4096 .f32) (h0 : Vec Ideal S64x64 .f32) (r : Fin 128) (n : Fin 4096) :
    k0_pay1 x0 h0 (ix2 r n)
      = ∑ i : Fin 64, (∑ jj : Fin 64, x0 (ix2 r (pos i jj)) * (h0 (ix2 jj (lo n)) * eighth)) * (h0 (ix2 i (hi n)) * eighth) := by
  unfold k0_pay1
  dsimp only
  refine (cast_to_row _ _ r n).trans ?_
  refine (transpose_entry _ _ r (hi n) (lo n)).trans ?_
  refine (cast_from_rows _ _ r (lo n) (hi n)).trans ?_
  refine (matmul_entry _ _ (row r (lo n)) (hi n)).trans ?_
  refine Finset.sum_congr rfl fun i _ => ?_
  refine congrArg₂ (· * ·) ?_ rfl
  refine (cast_to_rows _ _ r (lo n) i).trans ?_
  refine (transpose_entry _ _ r (lo n) i).trans ?_
  refine (truncf_apply (φ := .f32) (ψ := .bf16) _ bitsLt_bf16_f32 _).trans ?_
  refine (cast_from_rows _ _ r i (lo n)).trans ?_
  refine (matmul_entry _ _ (row r i) (lo n)).trans ?_
  refine Finset.sum_congr rfl fun jj _ => ?_
  refine congrArg₂ (· * ·) ?_ rfl
  refine (cast_to_rows _ _ r i jj).trans ?_
  refine (truncf_apply (φ := .f32) (ψ := .bf16) _ bitsLt_bf16_f32 _).trans ?_
  refine (cast_from_row _ _ r i jj).trans ?_
  exact congrFun (shapeCast_self x0 _) _

end Cert.KernelIdeal.HValue

end
-- ==== Proof.KernelBlocks.lean ====
/-
  From blocks to arrays.

  Grid point t (of 64) reads rows 128 t … 128 t + 127 of the operand array and the whole 64 x 64 matrix, and writes
  rows 128 t … 128 t + 127 of the result array.  Each stored entry depends on its own row of the operand only, so every
  block written back is a block of ONE whole-array function (`rowsSpec`: the two-sided product taken row by row); the 64
  blocks tile the 8192 rows (row R is in the block of point R / 128), so the result array after the region is that
  function.  The operand array is the program's argument with its two leading axes merged, the matrix is the program's
  literal, and the program's result is the region's result array with the leading axis split back.
-/
import proofs.«177755_j40243843564261_2_alg».proof.Proof.KernelEntry
import proofs.«177755_j40243843564261_2_alg».proof.Proof.Gen.KernelIdeal.Frame

noncomputable section

namespace Cert.KernelIdeal.HValue

open Cert.KernelIdeal Cert.KernelIdeal.Gen Idealize.ShloMosaic Idealize.ShloMosaic.ValueIdx Idealize.SL.Sem
open Cert.Wht (pos hi lo)
open Idealize.ShloMosaic.TcCoe Idealize.ShloMosaic.Tactic
open Idealize.ShloMosaic.Pipeline (Dat)

variable (m : (ℓ : Loc nD τ sig) → Buf (Elt Ideal) ℓ) (ρ : Dev nD → PrngReg)

/-- The two-sided product row by row, over the 8192 x 4096 arrangement: position `n` of row `R` from row `R` of `a`. -/
def rowsSpec (a : S8192x4096.Idx → EReal) (h : S64x64.Idx → EReal) : S8192x4096.Idx → EReal := fun i =>
  ∑ i' : Fin 64, (∑ jj : Fin 64, a (ix2 (i 0) (pos i' jj)) * (h (ix2 jj (lo (i 1))) * eighth)) * (h (ix2 i' (hi (i 1))) * eighth)

/-- The body's stored block, at any index of the block. -/
theorem pay_at (x0 : Vec Ideal S128x4096 .f32) (h0 : Vec Ideal S64x64 .f32) (y : S128x4096.Idx) :
    k0_pay1 x0 h0 y
      = ∑ i : Fin 64, (∑ jj : Fin 64, x0 (ix2 (y 0) (pos i jj)) * (h0 (ix2 jj (lo (y 1))) * eighth)) * (h0 (ix2 i (hi (y 1))) * eighth) :=
  (congrArg (k0_pay1 x0 h0) (eq_ix2 y)).trans (pay_entry x0 h0 (y 0) (y 1))

theorem hz : (![0, 0] : Fin 2 → Nat) = fun _ => 0 := funext fun a => by fin_cases a <;> rfl

/-- The printed index maps over the grid: point `t` takes block row `t` of the operand and of the result, and the one
    block of the matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point `t` is rows `128 t … 128 t + 127` of the array the region finds. -/
theorem iblk0_at (c : Dev nD) (t : Fin cfg0.N) (x : S128x4096.Idx) (k : S8192x4096.Idx)
    (hk0 : (k 0).val = 128 * t.val + (x 0).val) (hk1 : (k 1).val = (x 1).val) :
    (iblk m c 0 t : Vec Ideal S128x4096 .f32) x = (V m c main_v0 : S8192x4096.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 128 + 1 * (x 0).val = (k 0).val; rw [e0, hk0]; omega
  | ⟨1, _⟩ => show win0_0.index t (1 : Fin 2) * 4096 + 1 * (x 1).val = (k 1).val; rw [e1, hk1]; omega

/-- The matrix's block at every point is the whole matrix. -/
theorem iblk1_at (c : Dev nD) (t : Fin cfg0.N) (x : S64x64.Idx) :
    (iblk m c 1 t : Vec Ideal S64x64 .f32) x = (V m c main_cst : S64x64.Idx → EReal) x := by
  obtain ⟨-, -, e2, e3, -⟩ := idx_facts t
  unfold iblk
  rw [View.read_apply]
  show V m c main_cst _ = V m c main_cst _
  congr 1
  funext a
  apply Fin.ext
  match a with
  | ⟨0, _⟩ => show win0_1.index t (0 : Fin 2) * 64 + 1 * (x 0).val = (x 0).val; rw [e2]; omega
  | ⟨1, _⟩ => show win0_1.index t (1 : Fin 2) * 64 + 1 * (x 1).val = (x 1).val; rw [e3]; omega

/-- Where the result's block at point `t` sits in the result array. -/
theorem emb2_at (t : Fin cfg0.N) (y : S128x4096.Idx) :
    (((cfg0.win 2).blk t).view.emb y 0).val = 128 * t.val + (y 0).val ∧ (((cfg0.win 2).blk t).view.emb y 1).val = (y 1).val := by
  obtain ⟨-, -, -, -, e4, e5⟩ := idx_facts t
  constructor
  · show win0_2.index t (0 : Fin 2) * 128 + 1 * (y 0).val = _; rw [e4]; omega
  · show win0_2.index t (1 : Fin 2) * 4096 + 1 * (y 1).val = _; rw [e5]; omega

/-- WHAT POINT `t` WRITES BACK is block `t` of the row-by-row product of the arrays the region finds. -/
theorem flushed_eq (c : Dev nD) (t : Fin cfg0.N) :
    (dats m 0 c).flushed 2 t = ((cfg0.win 2).blk t).view.read (Elt Ideal) (rowsSpec (V m c main_v0) (V m c main_cst)) := by
  show (cfg0.win 2).cut (grid0.coords t) ((dats m 0 c).after 2 t) = _
  rw [after0_2]
  unfold out0_2
  rw [View.canon_unit_zero hz]
  simp only [View.ld_unit_zero (S := S128x4096) hz, View.ld_unit_zero (S := S64x64) hz]
  funext y
  show k0_pay1 (iblk m c 0 t) (iblk m c 1 t) y = rowsSpec (V m c main_v0) (V m c main_cst) (((cfg0.win 2).blk t).view.emb y)
  refine (pay_at (iblk m c 0 t) (iblk m c 1 t) y).trans ?_
  unfold rowsSpec
  obtain ⟨h0', h1'⟩ := emb2_at t y
  have hlo : lo (((cfg0.win 2).blk t).view.emb y 1) = lo (y 1) := Fin.ext (congrArg (· % 64) h1')
  have hhi : hi (((cfg0.win 2).blk t).view.emb y 1) = hi (y 1) := Fin.ext (congrArg (· / 64) h1')
  rw [hlo, hhi]
  refine Finset.sum_congr rfl fun i _ => ?_
  refine congrArg₂ (· * ·) (Finset.sum_congr rfl fun jj _ => congrArg₂ (· * ·) ?_ ?_) ?_
  · exact iblk0_at m c t (ix2 (y 0) (pos i jj)) (ix2 (((cfg0.win 2).blk t).view.emb y 0) (pos i jj)) h0' rfl
  · exact congrArg (· * eighth) (iblk1_at m c t (ix2 jj (lo (y 1))))
  · exact congrArg (· * eighth) (iblk1_at m c t (ix2 i (hi (y 1))))

/-- An index of the result array is in point `t`'s block iff each coordinate is in the block's range on its axis. -/
theorem mem_blk (t : Fin cfg0.N) (i : S8192x4096.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v1).slice (win0_2.rect t)).set ↔ _
  rw [View.set_slice_whole, Rect.mem_set_unit]
  exact Iff.rfl

/-- The blocks tile the result array: row `R` is in the block of point `R / 128`. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ : ∃ t : Fin cfg0.N, t.val = (i 0).val / 128 :=
    ⟨⟨(i 0).val / 128, by show _ < grid0.N; rw [N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; rw [e4, ht]; omega
  | ⟨1, _⟩ => show win0_2.index t (1 : Fin 2) * 4096 ≤ (i 1).val ∧ (i 1).val < win0_2.index t (1 : Fin 2) * 4096 + 4096; rw [e5]; omega

/-- THE RESULT ARRAY after the region: the row-by-row product of the arrays the region finds. -/
theorem final (c : Dev nD) : (dats m 0 c).arrAt 2 cfg0.N = rowsSpec (V m c main_v0) (V m c main_cst) :=
  (dats m 0 c).arrAt_eq_of_cover 2 (rowsSpec (V m c main_v0) (V m c main_cst)) (fun t _ => flushed_eq m c t) cover

/-- The operand array the region finds: the argument with its two leading axes merged. -/
theorem V_v0 (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The matrix the region finds: the program's literal. -/
theorem V_cst (c : Dev nD) : (V m c main_cst : S64x64.Idx → EReal)
    = fun i => Ideal.ofBits .f32 (lit0 (S64x64.rowMajor i)) := by
  show StableHlo.after hostOps0 (fun b => m (c, b)) (Proc.devRef .tc main_cst) = _
  after_results
  rfl

/-- The program's result: the region's result array with its leading axis split back. -/
theorem tail_eq (c : Dev nD) : (Pipeline.afterTail₀ cfgs (dats m) 0 (V0 m) [hostOps1] c main_v2 : S4x2048x4096.Idx → EReal)
    = shapeCast S4x2048x4096 (rowsSpec (V m c main_v0) (V m c main_cst)) shapeCasts_S8192x4096_S4x2048x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = rowsSpec (V m c main_v0) (V m c main_cst) :=
    (Pipeline.withArrays_arr spec0 launch0.win.arr_inj c _ _ 2).trans (final m c)
  rw [e]
  rfl

end Cert.KernelIdeal.HValue

end
-- ==== Proof.KernelRun.lean ====
/-
  The program's run, read: every execution ends with the result array at the two-sided product of each row (a, s) of the
  argument — row 2048 a + s of the merged arrangement —, the matrix the program's literal and the scale the word it spells
  for one eighth, and with the argument unchanged.
-/
import proofs.«177755_j40243843564261_2_alg».proof.Proof.KernelBlocks

noncomputable section

namespace Cert.KernelIdeal.HValue

open Cert.KernelIdeal Cert.KernelIdeal.Gen Idealize.ShloMosaic Idealize.ShloMosaic.ValueIdx Idealize.SL.Sem
open Cert.Wht (pos hi lo)
open Idealize.ShloMosaic.TcCoe Idealize.ShloMosaic.Tactic
open Idealize.ShloMosaic.Pipeline (Dat)

variable (m : (ℓ : Loc nD τ sig) → Buf (Elt Ideal) ℓ) (ρ : Dev nD → PrngReg)

/-- Row `2048 a + s` of the merged arrangement is row `(a, s)` of the argument. -/
def arow (a : Fin 4) (s : Fin 2048) : Fin 8192 := ⟨2048 * a.val + s.val, by omega⟩

/-- Merging the two leading axes, taking the two-sided product row by row and splitting the axes back is the two-sided
    product of each row `(a, s)`. -/
theorem value_eq (X : S4x2048x4096.Idx → EReal) (H : S64x64.Idx → EReal) :
    shapeCast S4x2048x4096 (rowsSpec (shapeCast S8192x4096 X shapeCasts_S4x2048x4096_S8192x4096) H) shapeCasts_S8192x4096_S4x2048x4096
      = Cert.Wht.twoSided X H eighth := by
  funext j
  obtain ⟨a, s, n, rfl⟩ : ∃ (a : Fin 4) (s : Fin 2048) (n : Fin 4096), j = ix3 a s n := ⟨j 0, j 1, j 2, eq_ix3 j⟩
  refine (shapeCast_apply _ _ (ix3 a s n) (ix2 (arow a s) n) ?_).trans ?_
  · rw [Shape.rowMajor_val_two, Shape.rowMajor_val_three]
    show (2048 * a.val + s.val) * 4096 + n.val = (a.val * 2048 + s.val) * 4096 + n.val
    omega
  unfold rowsSpec Cert.Wht.twoSided
  refine Finset.sum_congr rfl fun i _ => ?_
  refine congrArg₂ (· * ·) (Finset.sum_congr rfl fun jj _ => congrArg₂ (· * ·) ?_ rfl) rfl
  refine shapeCast_apply _ _ (ix2 (arow a s) (pos i jj)) (ix3 a s (pos i jj)) ?_
  rw [Shape.rowMajor_val_two, Shape.rowMajor_val_three]
  show (a.val * 2048 + s.val) * 4096 + (pos i jj).val = (2048 * a.val + s.val) * 4096 + (pos i jj).val
  omega

/-- The program's result, as a function of the argument. -/
theorem result_eq (c : Dev nD) : (Pipeline.afterTail₀ cfgs (dats m) 0 (V0 m) [hostOps1] c main_v2 : S4x2048x4096.Idx → EReal)
    = Cert.Wht.twoSided (m ((c : Thread nD τ).loc main_arg0)) (fun i => Ideal.ofBits .f32 (lit0 (S64x64.rowMajor i)))
        (Ideal.ofBits .f32 0x3E000000#32) := by
  rw [tail_eq, V_v0, V_cst]
  exact value_eq _ _

/-- The 64 x 64 matrix the program spells, as extended reals. -/
def Hlit : Cert.Wht.SH.Idx → EReal := fun i => Ideal.ofBits .f32 (Cert.KernelIdeal.lit0 (Cert.KernelIdeal.S64x64.rowMajor i))

theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2)
          = Cert.Wht.twoSided (m ((c.tc : Thread Cert.KernelIdeal.nD Cert.KernelIdeal.τ).loc Cert.KernelIdeal.main_arg0)) Hlit (Ideal.ofBits .f32 0x3E000000#32)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.HValue

end
-- ==== Proof.RefRun.lean ====
/-
  The reference's run, read stage by stage.  @main is a line of 101 host operations: two reshapes, twelve butterfly
  stages (cut the two halves of every pair, add, subtract, lay sum and difference side by side, regroup), a reshape
  back and a product with a constant.  Every weakly fair execution ends with each buffer at the operations' value;
  that value is taken one stage at a time, each stage a function of the buffer the stage before it wrote, so that no
  term ever holds the whole butterfly.
-/
import proofs.«177755_j40243843564261_2_alg».proof.Proof.Gen.ReferenceIdeal
import Idealize.ShloMosaic.Lib.StableHlo.Run

noncomputable section

namespace Cert.Wht.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 101 operations, in order. -/
abbrev ops : List (HloOp τ sig (Elt F)) :=
  [ reshape main_arg0 main_v0 rfl shapeCasts_S4x2048x4096_S8192x4096x1,
    reshape main_v0 main_v1 rfl shapeCasts_S8192x4096x1_S8192x2048x2x1,
    unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    reshape main_v2 main_v3 rfl shapeCasts_S8192x2048x1x1_S8192x2048x1,
    unary main_v1 main_v4 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    reshape main_v4 main_v5 rfl shapeCasts_S8192x2048x1x1_S8192x2048x1,
    binary main_v3 main_v5 main_v6 (addf : (⟨S8192x2048x1, .f32⟩ : BufTy).Contents (Elt F) → (⟨S8192x2048x1, .f32⟩ : BufTy).Contents (Elt F) → (⟨S8192x2048x1, .f32⟩ : BufTy).Contents (Elt F)),
    binary main_v3 main_v5 main_v7 (subf : (⟨S8192x2048x1, .f32⟩ : BufTy).Contents (Elt F) → (⟨S8192x2048x1, .f32⟩ : BufTy).Contents (Elt F) → (⟨S8192x2048x1, .f32⟩ : BufTy).Contents (Elt F)),
    binary main_v6 main_v7 main_v8 ((fun a b => concatenate S8192x2048x2 2 [⟨S8192x2048x1, a⟩, ⟨S8192x2048x1, b⟩] concatenates_S8192x2048x1_S8192x2048x1_S8192x2048x2_d2) : (⟨S8192x2048x1, .f32⟩ : BufTy).Contents (Elt F) → (⟨S8192x2048x1, .f32⟩ : BufTy).Contents (Elt F) → (⟨S8192x2048x2, .f32⟩ : BufTy).Contents (Elt F)),
    reshape main_v8 main_v9 rfl shapeCasts_S8192x2048x2_S8192x1024x2x2,
    unary main_v9 main_v10 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    reshape main_v10 main_v11 rfl shapeCasts_S8192x1024x1x2_S8192x1024x2,
    unary main_v9 main_v12 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    reshape main_v12 main_v13 rfl shapeCasts_S8192x1024x1x2_S8192x1024x2,
    binary main_v11 main_v13 main_v14 (addf : (⟨S8192x1024x2, .f32⟩ : BufTy).Contents (Elt F) → (⟨S8192x1024x2, .f32⟩ : BufTy).Contents (Elt F) → (⟨S8192x1024x2, .f32⟩ : BufTy).Contents (Elt F)),
    binary main_v11 main_v13 main_v15 (subf : (⟨S8192x1024x2, .f32⟩ : BufTy).Contents (Elt F) → (⟨S8192x1024x2, .f32⟩ : BufTy).Contents (Elt F) → (⟨S8192x1024x2, .f32⟩ : BufTy).Contents (Elt F)),
    binary main_v14 main_v15 main_v16 ((fun a b => concatenate S8192x1024x4 2 [⟨S8192x1024x2, a⟩, ⟨S8192x1024x2, b⟩] concatenates_S8192x1024x2_S8192x1024x2_S8192x1024x4_d2) : (⟨S8192x1024x2, .f32⟩ : BufTy).Contents (Elt F) → (⟨S8192x1024x2, .f32⟩ : BufTy).Contents (Elt F) → (⟨S8192x1024x4, .f32⟩ : BufTy).Contents (Elt F)),
    reshape main_v16 main_v17 rfl shapeCasts_S8192x1024x4_S8192x512x2x4,
    unary main_v17 main_v18 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    reshape main_v18 main_v19 rfl shapeCasts_S8192x512x1x4_S8192x512x4,
    unary main_v17 main_v20 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    reshape main_v20 main_v21 rfl shapeCasts_S8192x512x1x4_S8192x512x4,
    binary main_v19 main_v21 main_v22 (addf : (⟨S8192x512x4, .f32⟩ : BufTy).Contents (Elt F) → (⟨S8192x512x4, .f32⟩ : BufTy).Contents (Elt F) → (⟨S8192x512x4, .f32⟩ : BufTy).Contents (Elt F)),
    binary main_v19 main_v21 main_v23 (subf : (⟨S8192x512x4, .f32⟩ : BufTy).Contents (Elt F) → (⟨S8192x512x4, .f32⟩ : BufTy).Contents (Elt F) → (⟨S8192x512x4, .f32⟩ : BufTy).Contents (Elt F)),
    binary main_v22 main_v23 main_v24 ((fun a b => concatenate S8192x512x8 2 [⟨S8192x512x4, a⟩, ⟨S8192x512x4, b⟩] concatenates_S8192x512x4_S8192x512x4_S8192x512x8_d2) : (⟨S8192x512x4, .f32⟩ : BufTy).Contents (Elt F) → (⟨S8192x512x4, .f32⟩ : BufTy).Contents (Elt F) → (⟨S8192x512x8, .f32⟩ : BufTy).Contents (Elt F)),
    reshape main_v24 main_v25 rfl shapeCasts_S8192x512x8_S8192x256x2x8,
    unary main_v25 main_v26 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    reshape main_v26 main_v27 rfl shapeCasts_S8192x256x1x8_S8192x256x8,
    unary main_v25 main_v28 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    reshape main_v28 main_v29 rfl shapeCasts_S8192x256x1x8_S8192x256x8,
    binary main_v27 main_v29 main_v30 (addf : (⟨S8192x256x8, .f32⟩ : BufTy).Contents (Elt F) → (⟨S8192x256x8, .f32⟩ : BufTy).Contents (Elt F) → (⟨S8192x256x8, .f32⟩ : BufTy).Contents (Elt F)),
    binary main_v27 main_v29 main_v31 (subf : (⟨S8192x256x8, .f32⟩ : BufTy).Contents (Elt F) → (⟨S8192x256x8, .f32⟩ : BufTy).Contents (Elt F) → (⟨S8192x256x8, .f32⟩ : BufTy).Contents (Elt F)),
    binary main_v30 main_v31 main_v32 ((fun a b => concatenate S8192x256x16 2 [⟨S8192x256x8, a⟩, ⟨S8192x256x8, b⟩] concatenates_S8192x256x8_S8192x256x8_S8192x256x16_d2) : (⟨S8192x256x8, .f32⟩ : BufTy).Contents (Elt F) → (⟨S8192x256x8, .f32⟩ : BufTy).Contents (Elt F) → (⟨S8192x256x16, .f32⟩ : BufTy).Contents (Elt F)),
    reshape main_v32 main_v33 rfl shapeCasts_S8192x256x16_S8192x128x2x16,
    unary main_v33 main_v34 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    reshape main_v34 main_v35 rfl shapeCasts_S8192x128x1x16_S8192x128x16,
    unary main_v33 main_v36 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    reshape main_v36 main_v37 rfl shapeCasts_S8192x128x1x16_S8192x128x16,
    binary main_v35 main_v37 main_v38 (addf : (⟨S8192x128x16, .f32⟩ : BufTy).Contents (Elt F) → (⟨S8192x128x16, .f32⟩ : BufTy).Contents (Elt F) → (⟨S8192x128x16, .f32⟩ : BufTy).Contents (Elt F)),
    binary main_v35 main_v37 main_v39 (subf : (⟨S8192x128x16, .f32⟩ : BufTy).Contents (Elt F) → (⟨S8192x128x16, .f32⟩ : BufTy).Contents (Elt F) → (⟨S8192x128x16, .f32⟩ : BufTy).Contents (Elt F)),
    binary main_v38 main_v39 main_v40 ((fun a b => concatenate S8192x128x32 2 [⟨S8192x128x16, a⟩, ⟨S8192x128x16, b⟩] concatenates_S8192x128x16_S8192x128x16_S8192x128x32_d2) : (⟨S8192x128x16, .f32⟩ : BufTy).Contents (Elt F) → (⟨S8192x128x16, .f32⟩ : BufTy).Contents (Elt F) → (⟨S8192x128x32, .f32⟩ : BufTy).Contents (Elt F)),
    reshape main_v40 main_v41 rfl shapeCasts_S8192x128x32_S8192x64x2x32,
    unary main_v41 main_v42 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    reshape main_v42 main_v43 rfl shapeCasts_S8192x64x1x32_S8192x64x32,
    unary main_v41 main_v44 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    reshape main_v44 main_v45 rfl shapeCasts_S8192x64x1x32_S8192x64x32,
    binary main_v43 main_v45 main_v46 (addf : (⟨S8192x64x32, .f32⟩ : BufTy).Contents (Elt F) → (⟨S8192x64x32, .f32⟩ : BufTy).Contents (Elt F) → (⟨S8192x64x32, .f32⟩ : BufTy).Contents (Elt F)),
    binary main_v43 main_v45 main_v47 (subf : (⟨S8192x64x32, .f32⟩ : BufTy).Contents (Elt F) → (⟨S8192x64x32, .f32⟩ : BufTy).Contents (Elt F) → (⟨S8192x64x32, .f32⟩ : BufTy).Contents (Elt F)),
    binary main_v46 main_v47 main_v48 ((fun a b => concatenate S8192x64x64 2 [⟨S8192x64x32, a⟩, ⟨S8192x64x32, b⟩] concatenates_S8192x64x32_S8192x64x32_S8192x64x64_d2) : (⟨S8192x64x32, .f32⟩ : BufTy).Contents (Elt F) → (⟨S8192x64x32, .f32⟩ : BufTy).Contents (Elt F) → (⟨S8192x64x64, .f32⟩ : BufTy).Contents (Elt F)),
    reshape main_v48 main_v49 rfl shapeCasts_S8192x64x64_S8192x32x2x64,
    unary main_v49 main_v50 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    reshape main_v50 main_v51 rfl shapeCasts_S8192x32x1x64_S8192x32x64,
    unary main_v49 main_v52 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    reshape main_v52 main_v53 rfl shapeCasts_S8192x32x1x64_S8192x32x64,
    binary main_v51 main_v53 main_v54 (addf : (⟨S8192x32x64, .f32⟩ : BufTy).Contents (Elt F) → (⟨S8192x32x64, .f32⟩ : BufTy).Contents (Elt F) → (⟨S8192x32x64, .f32⟩ : BufTy).Contents (Elt F)),
    binary main_v51 main_v53 main_v55 (subf : (⟨S8192x32x64, .f32⟩ : BufTy).Contents (Elt F) → (⟨S8192x32x64, .f32⟩ : BufTy).Contents (Elt F) → (⟨S8192x32x64, .f32⟩ : BufTy).Contents (Elt F)),
    binary main_v54 main_v55 main_v56 ((fun a b => concatenate S8192x32x128 2 [⟨S8192x32x64, a⟩, ⟨S8192x32x64, b⟩] concatenates_S8192x32x64_S8192x32x64_S8192x32x128_d2) : (⟨S8192x32x64, .f32⟩ : BufTy).Contents (Elt F) → (⟨S8192x32x64, .f32⟩ : BufTy).Contents (Elt F) → (⟨S8192x32x128, .f32⟩ : BufTy).Contents (Elt F)),
    reshape main_v56 main_v57 rfl shapeCasts_S8192x32x128_S8192x16x2x128,
    unary main_v57 main_v58 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    reshape main_v58 main_v59 rfl shapeCasts_S8192x16x1x128_S8192x16x128,
    unary main_v57 main_v60 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    reshape main_v60 main_v61 rfl shapeCasts_S8192x16x1x128_S8192x16x128,
    binary main_v59 main_v61 main_v62 (addf : (⟨S8192x16x128, .f32⟩ : BufTy).Contents (Elt F) → (⟨S8192x16x128, .f32⟩ : BufTy).Contents (Elt F) → (⟨S8192x16x128, .f32⟩ : BufTy).Contents (Elt F)),
    binary main_v59 main_v61 main_v63 (subf : (⟨S8192x16x128, .f32⟩ : BufTy).Contents (Elt F) → (⟨S8192x16x128, .f32⟩ : BufTy).Contents (Elt F) → (⟨S8192x16x128, .f32⟩ : BufTy).Contents (Elt F)),
    binary main_v62 main_v63 main_v64 ((fun a b => concatenate S8192x16x256 2 [⟨S8192x16x128, a⟩, ⟨S8192x16x128, b⟩] concatenates_S8192x16x128_S8192x16x128_S8192x16x256_d2) : (⟨S8192x16x128, .f32⟩ : BufTy).Contents (Elt F) → (⟨S8192x16x128, .f32⟩ : BufTy).Contents (Elt F) → (⟨S8192x16x256, .f32⟩ : BufTy).Contents (Elt F)),
    reshape main_v64 main_v65 rfl shapeCasts_S8192x16x256_S8192x8x2x256,
    unary main_v65 main_v66 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    reshape main_v66 main_v67 rfl shapeCasts_S8192x8x1x256_S8192x8x256,
    unary main_v65 main_v68 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    reshape main_v68 main_v69 rfl shapeCasts_S8192x8x1x256_S8192x8x256,
    binary main_v67 main_v69 main_v70 (addf : (⟨S8192x8x256, .f32⟩ : BufTy).Contents (Elt F) → (⟨S8192x8x256, .f32⟩ : BufTy).Contents (Elt F) → (⟨S8192x8x256, .f32⟩ : BufTy).Contents (Elt F)),
    binary main_v67 main_v69 main_v71 (subf : (⟨S8192x8x256, .f32⟩ : BufTy).Contents (Elt F) → (⟨S8192x8x256, .f32⟩ : BufTy).Contents (Elt F) → (⟨S8192x8x256, .f32⟩ : BufTy).Contents (Elt F)),
    binary main_v70 main_v71 main_v72 ((fun a b => concatenate S8192x8x512 2 [⟨S8192x8x256, a⟩, ⟨S8192x8x256, b⟩] concatenates_S8192x8x256_S8192x8x256_S8192x8x512_d2) : (⟨S8192x8x256, .f32⟩ : BufTy).Contents (Elt F) → (⟨S8192x8x256, .f32⟩ : BufTy).Contents (Elt F) → (⟨S8192x8x512, .f32⟩ : BufTy).Contents (Elt F)),
    reshape main_v72 main_v73 rfl shapeCasts_S8192x8x512_S8192x4x2x512,
    unary main_v73 main_v74 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    reshape main_v74 main_v75 rfl shapeCasts_S8192x4x1x512_S8192x4x512,
    unary main_v73 main_v76 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    reshape main_v76 main_v77 rfl shapeCasts_S8192x4x1x512_S8192x4x512,
    binary main_v75 main_v77 main_v78 (addf : (⟨S8192x4x512, .f32⟩ : BufTy).Contents (Elt F) → (⟨S8192x4x512, .f32⟩ : BufTy).Contents (Elt F) → (⟨S8192x4x512, .f32⟩ : BufTy).Contents (Elt F)),
    binary main_v75 main_v77 main_v79 (subf : (⟨S8192x4x512, .f32⟩ : BufTy).Contents (Elt F) → (⟨S8192x4x512, .f32⟩ : BufTy).Contents (Elt F) → (⟨S8192x4x512, .f32⟩ : BufTy).Contents (Elt F)),
    binary main_v78 main_v79 main_v80 ((fun a b => concatenate S8192x4x1024 2 [⟨S8192x4x512, a⟩, ⟨S8192x4x512, b⟩] concatenates_S8192x4x512_S8192x4x512_S8192x4x1024_d2) : (⟨S8192x4x512, .f32⟩ : BufTy).Contents (Elt F) → (⟨S8192x4x512, .f32⟩ : BufTy).Contents (Elt F) → (⟨S8192x4x1024, .f32⟩ : BufTy).Contents (Elt F)),
    reshape main_v80 main_v81 rfl shapeCasts_S8192x4x1024_S8192x2x2x1024,
    unary main_v81 main_v82 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    reshape main_v82 main_v83 rfl shapeCasts_S8192x2x1x1024_S8192x2x1024,
    unary main_v81 main_v84 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    reshape main_v84 main_v85 rfl shapeCasts_S8192x2x1x1024_S8192x2x1024,
    binary main_v83 main_v85 main_v86 (addf : (⟨S8192x2x1024, .f32⟩ : BufTy).Contents (Elt F) → (⟨S8192x2x1024, .f32⟩ : BufTy).Contents (Elt F) → (⟨S8192x2x1024, .f32⟩ : BufTy).Contents (Elt F)),
    binary main_v83 main_v85 main_v87 (subf : (⟨S8192x2x1024, .f32⟩ : BufTy).Contents (Elt F) → (⟨S8192x2x1024, .f32⟩ : BufTy).Contents (Elt F) → (⟨S8192x2x1024, .f32⟩ : BufTy).Contents (Elt F)),
    binary main_v86 main_v87 main_v88 ((fun a b => concatenate S8192x2x2048 2 [⟨S8192x2x1024, a⟩, ⟨S8192x2x1024, b⟩] concatenates_S8192x2x1024_S8192x2x1024_S8192x2x2048_d2) : (⟨S8192x2x1024, .f32⟩ : BufTy).Contents (Elt F) → (⟨S8192x2x1024, .f32⟩ : BufTy).Contents (Elt F) → (⟨S8192x2x2048, .f32⟩ : BufTy).Contents (Elt F)),
    reshape main_v88 main_v89 rfl shapeCasts_S8192x2x2048_S8192x1x2x2048,
    unary main_v89 main_v90 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    reshape main_v90 main_v91 rfl shapeCasts_S8192x1x1x2048_S8192x1x2048,
    unary main_v89 main_v92 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    reshape main_v92 main_v93 rfl shapeCasts_S8192x1x1x2048_S8192x1x2048,
    binary main_v91 main_v93 main_v94 (addf : (⟨S8192x1x2048, .f32⟩ : BufTy).Contents (Elt F) → (⟨S8192x1x2048, .f32⟩ : BufTy).Contents (Elt F) → (⟨S8192x1x2048, .f32⟩ : BufTy).Contents (Elt F)),
    binary main_v91 main_v93 main_v95 (subf : (⟨S8192x1x2048, .f32⟩ : BufTy).Contents (Elt F) → (⟨S8192x1x2048, .f32⟩ : BufTy).Contents (Elt F) → (⟨S8192x1x2048, .f32⟩ : BufTy).Contents (Elt F)),
    binary main_v94 main_v95 main_v96 ((fun a b => concatenate S8192x1x4096 2 [⟨S8192x1x2048, a⟩, ⟨S8192x1x2048, b⟩] concatenates_S8192x1x2048_S8192x1x2048_S8192x1x4096_d2) : (⟨S8192x1x2048, .f32⟩ : BufTy).Contents (Elt F) → (⟨S8192x1x2048, .f32⟩ : BufTy).Contents (Elt F) → (⟨S8192x1x4096, .f32⟩ : BufTy).Contents (Elt F)),
    reshape main_v96 main_v97 rfl shapeCasts_S8192x1x4096_S4x2048x4096,
    nullary main_cst (constant S_ .f32 0x3C800000#32),
    unary main_cst main_v98 (broadcastInDim S4x2048x4096 ![] bcast_S_S4x2048x4096 : (⟨S_, .f32⟩ : BufTy).Contents (Elt F) → (⟨S4x2048x4096, .f32⟩ : BufTy).Contents (Elt F)),
    binary main_v97 main_v98 main_v99 (mulf : (⟨S4x2048x4096, .f32⟩ : BufTy).Contents (Elt F) → (⟨S4x2048x4096, .f32⟩ : BufTy).Contents (Elt F) → (⟨S4x2048x4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., nullary_bufs_sub .., unary_bufs_sub .., binary_bufs_sub ..⟩

/-! ## The line in pieces -/

/-- The two reshapes that lay the argument out as 8192 rows of 2048 pairs. -/
abbrev pre : List (HloOp τ sig (Elt F)) :=
  [ reshape main_arg0 main_v0 rfl shapeCasts_S4x2048x4096_S8192x4096x1,
    reshape main_v0 main_v1 rfl shapeCasts_S8192x4096x1_S8192x2048x2x1 ]

/-- Butterfly stage 0: cut the two halves, add, subtract, lay side by side, regroup. -/
abbrev st0 : List (HloOp τ sig (Elt F)) :=
  [ unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    reshape main_v2 main_v3 rfl shapeCasts_S8192x2048x1x1_S8192x2048x1,
    unary main_v1 main_v4 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    reshape main_v4 main_v5 rfl shapeCasts_S8192x2048x1x1_S8192x2048x1,
    binary main_v3 main_v5 main_v6 (addf : (⟨S8192x2048x1, .f32⟩ : BufTy).Contents (Elt F) → (⟨S8192x2048x1, .f32⟩ : BufTy).Contents (Elt F) → (⟨S8192x2048x1, .f32⟩ : BufTy).Contents (Elt F)),
    binary main_v3 main_v5 main_v7 (subf : (⟨S8192x2048x1, .f32⟩ : BufTy).Contents (Elt F) → (⟨S8192x2048x1, .f32⟩ : BufTy).Contents (Elt F) → (⟨S8192x2048x1, .f32⟩ : BufTy).Contents (Elt F)),
    binary main_v6 main_v7 main_v8 ((fun a b => concatenate S8192x2048x2 2 [⟨S8192x2048x1, a⟩, ⟨S8192x2048x1, b⟩] concatenates_S8192x2048x1_S8192x2048x1_S8192x2048x2_d2) : (⟨S8192x2048x1, .f32⟩ : BufTy).Contents (Elt F) → (⟨S8192x2048x1, .f32⟩ : BufTy).Contents (Elt F) → (⟨S8192x2048x2, .f32⟩ : BufTy).Contents (Elt F)),
    reshape main_v8 main_v9 rfl shapeCasts_S8192x2048x2_S8192x1024x2x2 ]

/-- Butterfly stage 1: cut the two halves, add, subtract, lay side by side, regroup. -/
abbrev st1 : List (HloOp τ sig (Elt F)) :=
  [ unary main_v9 main_v10 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    reshape main_v10 main_v11 rfl shapeCasts_S8192x1024x1x2_S8192x1024x2,
    unary main_v9 main_v12 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    reshape main_v12 main_v13 rfl shapeCasts_S8192x1024x1x2_S8192x1024x2,
    binary main_v11 main_v13 main_v14 (addf : (⟨S8192x1024x2, .f32⟩ : BufTy).Contents (Elt F) → (⟨S8192x1024x2, .f32⟩ : BufTy).Contents (Elt F) → (⟨S8192x1024x2, .f32⟩ : BufTy).Contents (Elt F)),
    binary main_v11 main_v13 main_v15 (subf : (⟨S8192x1024x2, .f32⟩ : BufTy).Contents (Elt F) → (⟨S8192x1024x2, .f32⟩ : BufTy).Contents (Elt F) → (⟨S8192x1024x2, .f32⟩ : BufTy).Contents (Elt F)),
    binary main_v14 main_v15 main_v16 ((fun a b => concatenate S8192x1024x4 2 [⟨S8192x1024x2, a⟩, ⟨S8192x1024x2, b⟩] concatenates_S8192x1024x2_S8192x1024x2_S8192x1024x4_d2) : (⟨S8192x1024x2, .f32⟩ : BufTy).Contents (Elt F) → (⟨S8192x1024x2, .f32⟩ : BufTy).Contents (Elt F) → (⟨S8192x1024x4, .f32⟩ : BufTy).Contents (Elt F)),
    reshape main_v16 main_v17 rfl shapeCasts_S8192x1024x4_S8192x512x2x4 ]

/-- Butterfly stage 2: cut the two halves, add, subtract, lay side by side, regroup. -/
abbrev st2 : List (HloOp τ sig (Elt F)) :=
  [ unary main_v17 main_v18 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    reshape main_v18 main_v19 rfl shapeCasts_S8192x512x1x4_S8192x512x4,
    unary main_v17 main_v20 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    reshape main_v20 main_v21 rfl shapeCasts_S8192x512x1x4_S8192x512x4,
    binary main_v19 main_v21 main_v22 (addf : (⟨S8192x512x4, .f32⟩ : BufTy).Contents (Elt F) → (⟨S8192x512x4, .f32⟩ : BufTy).Contents (Elt F) → (⟨S8192x512x4, .f32⟩ : BufTy).Contents (Elt F)),
    binary main_v19 main_v21 main_v23 (subf : (⟨S8192x512x4, .f32⟩ : BufTy).Contents (Elt F) → (⟨S8192x512x4, .f32⟩ : BufTy).Contents (Elt F) → (⟨S8192x512x4, .f32⟩ : BufTy).Contents (Elt F)),
    binary main_v22 main_v23 main_v24 ((fun a b => concatenate S8192x512x8 2 [⟨S8192x512x4, a⟩, ⟨S8192x512x4, b⟩] concatenates_S8192x512x4_S8192x512x4_S8192x512x8_d2) : (⟨S8192x512x4, .f32⟩ : BufTy).Contents (Elt F) → (⟨S8192x512x4, .f32⟩ : BufTy).Contents (Elt F) → (⟨S8192x512x8, .f32⟩ : BufTy).Contents (Elt F)),
    reshape main_v24 main_v25 rfl shapeCasts_S8192x512x8_S8192x256x2x8 ]

/-- Butterfly stage 3: cut the two halves, add, subtract, lay side by side, regroup. -/
abbrev st3 : List (HloOp τ sig (Elt F)) :=
  [ unary main_v25 main_v26 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    reshape main_v26 main_v27 rfl shapeCasts_S8192x256x1x8_S8192x256x8,
    unary main_v25 main_v28 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    reshape main_v28 main_v29 rfl shapeCasts_S8192x256x1x8_S8192x256x8,
    binary main_v27 main_v29 main_v30 (addf : (⟨S8192x256x8, .f32⟩ : BufTy).Contents (Elt F) → (⟨S8192x256x8, .f32⟩ : BufTy).Contents (Elt F) → (⟨S8192x256x8, .f32⟩ : BufTy).Contents (Elt F)),
    binary main_v27 main_v29 main_v31 (subf : (⟨S8192x256x8, .f32⟩ : BufTy).Contents (Elt F) → (⟨S8192x256x8, .f32⟩ : BufTy).Contents (Elt F) → (⟨S8192x256x8, .f32⟩ : BufTy).Contents (Elt F)),
    binary main_v30 main_v31 main_v32 ((fun a b => concatenate S8192x256x16 2 [⟨S8192x256x8, a⟩, ⟨S8192x256x8, b⟩] concatenates_S8192x256x8_S8192x256x8_S8192x256x16_d2) : (⟨S8192x256x8, .f32⟩ : BufTy).Contents (Elt F) → (⟨S8192x256x8, .f32⟩ : BufTy).Contents (Elt F) → (⟨S8192x256x16, .f32⟩ : BufTy).Contents (Elt F)),
    reshape main_v32 main_v33 rfl shapeCasts_S8192x256x16_S8192x128x2x16 ]

/-- Butterfly stage 4: cut the two halves, add, subtract, lay side by side, regroup. -/
abbrev st4 : List (HloOp τ sig (Elt F)) :=
  [ unary main_v33 main_v34 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    reshape main_v34 main_v35 rfl shapeCasts_S8192x128x1x16_S8192x128x16,
    unary main_v33 main_v36 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    reshape main_v36 main_v37 rfl shapeCasts_S8192x128x1x16_S8192x128x16,
    binary main_v35 main_v37 main_v38 (addf : (⟨S8192x128x16, .f32⟩ : BufTy).Contents (Elt F) → (⟨S8192x128x16, .f32⟩ : BufTy).Contents (Elt F) → (⟨S8192x128x16, .f32⟩ : BufTy).Contents (Elt F)),
    binary main_v35 main_v37 main_v39 (subf : (⟨S8192x128x16, .f32⟩ : BufTy).Contents (Elt F) → (⟨S8192x128x16, .f32⟩ : BufTy).Contents (Elt F) → (⟨S8192x128x16, .f32⟩ : BufTy).Contents (Elt F)),
    binary main_v38 main_v39 main_v40 ((fun a b => concatenate S8192x128x32 2 [⟨S8192x128x16, a⟩, ⟨S8192x128x16, b⟩] concatenates_S8192x128x16_S8192x128x16_S8192x128x32_d2) : (⟨S8192x128x16, .f32⟩ : BufTy).Contents (Elt F) → (⟨S8192x128x16, .f32⟩ : BufTy).Contents (Elt F) → (⟨S8192x128x32, .f32⟩ : BufTy).Contents (Elt F)),
    reshape main_v40 main_v41 rfl shapeCasts_S8192x128x32_S8192x64x2x32 ]

/-- Butterfly stage 5: cut the two halves, add, subtract, lay side by side, regroup. -/
abbrev st5 : List (HloOp τ sig (Elt F)) :=
  [ unary main_v41 main_v42 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    reshape main_v42 main_v43 rfl shapeCasts_S8192x64x1x32_S8192x64x32,
    unary main_v41 main_v44 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    reshape main_v44 main_v45 rfl shapeCasts_S8192x64x1x32_S8192x64x32,
    binary main_v43 main_v45 main_v46 (addf : (⟨S8192x64x32, .f32⟩ : BufTy).Contents (Elt F) → (⟨S8192x64x32, .f32⟩ : BufTy).Contents (Elt F) → (⟨S8192x64x32, .f32⟩ : BufTy).Contents (Elt F)),
    binary main_v43 main_v45 main_v47 (subf : (⟨S8192x64x32, .f32⟩ : BufTy).Contents (Elt F) → (⟨S8192x64x32, .f32⟩ : BufTy).Contents (Elt F) → (⟨S8192x64x32, .f32⟩ : BufTy).Contents (Elt F)),
    binary main_v46 main_v47 main_v48 ((fun a b => concatenate S8192x64x64 2 [⟨S8192x64x32, a⟩, ⟨S8192x64x32, b⟩] concatenates_S8192x64x32_S8192x64x32_S8192x64x64_d2) : (⟨S8192x64x32, .f32⟩ : BufTy).Contents (Elt F) → (⟨S8192x64x32, .f32⟩ : BufTy).Contents (Elt F) → (⟨S8192x64x64, .f32⟩ : BufTy).Contents (Elt F)),
    reshape main_v48 main_v49 rfl shapeCasts_S8192x64x64_S8192x32x2x64 ]

/-- Butterfly stage 6: cut the two halves, add, subtract, lay side by side, regroup. -/
abbrev st6 : List (HloOp τ sig (Elt F)) :=
  [ unary main_v49 main_v50 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    reshape main_v50 main_v51 rfl shapeCasts_S8192x32x1x64_S8192x32x64,
    unary main_v49 main_v52 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    reshape main_v52 main_v53 rfl shapeCasts_S8192x32x1x64_S8192x32x64,
    binary main_v51 main_v53 main_v54 (addf : (⟨S8192x32x64, .f32⟩ : BufTy).Contents (Elt F) → (⟨S8192x32x64, .f32⟩ : BufTy).Contents (Elt F) → (⟨S8192x32x64, .f32⟩ : BufTy).Contents (Elt F)),
    binary main_v51 main_v53 main_v55 (subf : (⟨S8192x32x64, .f32⟩ : BufTy).Contents (Elt F) → (⟨S8192x32x64, .f32⟩ : BufTy).Contents (Elt F) → (⟨S8192x32x64, .f32⟩ : BufTy).Contents (Elt F)),
    binary main_v54 main_v55 main_v56 ((fun a b => concatenate S8192x32x128 2 [⟨S8192x32x64, a⟩, ⟨S8192x32x64, b⟩] concatenates_S8192x32x64_S8192x32x64_S8192x32x128_d2) : (⟨S8192x32x64, .f32⟩ : BufTy).Contents (Elt F) → (⟨S8192x32x64, .f32⟩ : BufTy).Contents (Elt F) → (⟨S8192x32x128, .f32⟩ : BufTy).Contents (Elt F)),
    reshape main_v56 main_v57 rfl shapeCasts_S8192x32x128_S8192x16x2x128 ]

/-- Butterfly stage 7: cut the two halves, add, subtract, lay side by side, regroup. -/
abbrev st7 : List (HloOp τ sig (Elt F)) :=
  [ unary main_v57 main_v58 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    reshape main_v58 main_v59 rfl shapeCasts_S8192x16x1x128_S8192x16x128,
    unary main_v57 main_v60 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    reshape main_v60 main_v61 rfl shapeCasts_S8192x16x1x128_S8192x16x128,
    binary main_v59 main_v61 main_v62 (addf : (⟨S8192x16x128, .f32⟩ : BufTy).Contents (Elt F) → (⟨S8192x16x128, .f32⟩ : BufTy).Contents (Elt F) → (⟨S8192x16x128, .f32⟩ : BufTy).Contents (Elt F)),
    binary main_v59 main_v61 main_v63 (subf : (⟨S8192x16x128, .f32⟩ : BufTy).Contents (Elt F) → (⟨S8192x16x128, .f32⟩ : BufTy).Contents (Elt F) → (⟨S8192x16x128, .f32⟩ : BufTy).Contents (Elt F)),
    binary main_v62 main_v63 main_v64 ((fun a b => concatenate S8192x16x256 2 [⟨S8192x16x128, a⟩, ⟨S8192x16x128, b⟩] concatenates_S8192x16x128_S8192x16x128_S8192x16x256_d2) : (⟨S8192x16x128, .f32⟩ : BufTy).Contents (Elt F) → (⟨S8192x16x128, .f32⟩ : BufTy).Contents (Elt F) → (⟨S8192x16x256, .f32⟩ : BufTy).Contents (Elt F)),
    reshape main_v64 main_v65 rfl shapeCasts_S8192x16x256_S8192x8x2x256 ]

/-- Butterfly stage 8: cut the two halves, add, subtract, lay side by side, regroup. -/
abbrev st8 : List (HloOp τ sig (Elt F)) :=
  [ unary main_v65 main_v66 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    reshape main_v66 main_v67 rfl shapeCasts_S8192x8x1x256_S8192x8x256,
    unary main_v65 main_v68 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    reshape main_v68 main_v69 rfl shapeCasts_S8192x8x1x256_S8192x8x256,
    binary main_v67 main_v69 main_v70 (addf : (⟨S8192x8x256, .f32⟩ : BufTy).Contents (Elt F) → (⟨S8192x8x256, .f32⟩ : BufTy).Contents (Elt F) → (⟨S8192x8x256, .f32⟩ : BufTy).Contents (Elt F)),
    binary main_v67 main_v69 main_v71 (subf : (⟨S8192x8x256, .f32⟩ : BufTy).Contents (Elt F) → (⟨S8192x8x256, .f32⟩ : BufTy).Contents (Elt F) → (⟨S8192x8x256, .f32⟩ : BufTy).Contents (Elt F)),
    binary main_v70 main_v71 main_v72 ((fun a b => concatenate S8192x8x512 2 [⟨S8192x8x256, a⟩, ⟨S8192x8x256, b⟩] concatenates_S8192x8x256_S8192x8x256_S8192x8x512_d2) : (⟨S8192x8x256, .f32⟩ : BufTy).Contents (Elt F) → (⟨S8192x8x256, .f32⟩ : BufTy).Contents (Elt F) → (⟨S8192x8x512, .f32⟩ : BufTy).Contents (Elt F)),
    reshape main_v72 main_v73 rfl shapeCasts_S8192x8x512_S8192x4x2x512 ]

/-- Butterfly stage 9: cut the two halves, add, subtract, lay side by side, regroup. -/
abbrev st9 : List (HloOp τ sig (Elt F)) :=
  [ unary main_v73 main_v74 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    reshape main_v74 main_v75 rfl shapeCasts_S8192x4x1x512_S8192x4x512,
    unary main_v73 main_v76 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    reshape main_v76 main_v77 rfl shapeCasts_S8192x4x1x512_S8192x4x512,
    binary main_v75 main_v77 main_v78 (addf : (⟨S8192x4x512, .f32⟩ : BufTy).Contents (Elt F) → (⟨S8192x4x512, .f32⟩ : BufTy).Contents (Elt F) → (⟨S8192x4x512, .f32⟩ : BufTy).Contents (Elt F)),
    binary main_v75 main_v77 main_v79 (subf : (⟨S8192x4x512, .f32⟩ : BufTy).Contents (Elt F) → (⟨S8192x4x512, .f32⟩ : BufTy).Contents (Elt F) → (⟨S8192x4x512, .f32⟩ : BufTy).Contents (Elt F)),
    binary main_v78 main_v79 main_v80 ((fun a b => concatenate S8192x4x1024 2 [⟨S8192x4x512, a⟩, ⟨S8192x4x512, b⟩] concatenates_S8192x4x512_S8192x4x512_S8192x4x1024_d2) : (⟨S8192x4x512, .f32⟩ : BufTy).Contents (Elt F) → (⟨S8192x4x512, .f32⟩ : BufTy).Contents (Elt F) → (⟨S8192x4x1024, .f32⟩ : BufTy).Contents (Elt F)),
    reshape main_v80 main_v81 rfl shapeCasts_S8192x4x1024_S8192x2x2x1024 ]

/-- Butterfly stage 10: cut the two halves, add, subtract, lay side by side, regroup. -/
abbrev st10 : List (HloOp τ sig (Elt F)) :=
  [ unary main_v81 main_v82 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    reshape main_v82 main_v83 rfl shapeCasts_S8192x2x1x1024_S8192x2x1024,
    unary main_v81 main_v84 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    reshape main_v84 main_v85 rfl shapeCasts_S8192x2x1x1024_S8192x2x1024,
    binary main_v83 main_v85 main_v86 (addf : (⟨S8192x2x1024, .f32⟩ : BufTy).Contents (Elt F) → (⟨S8192x2x1024, .f32⟩ : BufTy).Contents (Elt F) → (⟨S8192x2x1024, .f32⟩ : BufTy).Contents (Elt F)),
    binary main_v83 main_v85 main_v87 (subf : (⟨S8192x2x1024, .f32⟩ : BufTy).Contents (Elt F) → (⟨S8192x2x1024, .f32⟩ : BufTy).Contents (Elt F) → (⟨S8192x2x1024, .f32⟩ : BufTy).Contents (Elt F)),
    binary main_v86 main_v87 main_v88 ((fun a b => concatenate S8192x2x2048 2 [⟨S8192x2x1024, a⟩, ⟨S8192x2x1024, b⟩] concatenates_S8192x2x1024_S8192x2x1024_S8192x2x2048_d2) : (⟨S8192x2x1024, .f32⟩ : BufTy).Contents (Elt F) → (⟨S8192x2x1024, .f32⟩ : BufTy).Contents (Elt F) → (⟨S8192x2x2048, .f32⟩ : BufTy).Contents (Elt F)),
    reshape main_v88 main_v89 rfl shapeCasts_S8192x2x2048_S8192x1x2x2048 ]

/-- Butterfly stage 11, the reshape back to the argument's extents, and the scale by the constant. -/
abbrev last : List (HloOp τ sig (Elt F)) :=
  [ unary main_v89 main_v90 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    reshape main_v90 main_v91 rfl shapeCasts_S8192x1x1x2048_S8192x1x2048,
    unary main_v89 main_v92 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    reshape main_v92 main_v93 rfl shapeCasts_S8192x1x1x2048_S8192x1x2048,
    binary main_v91 main_v93 main_v94 (addf : (⟨S8192x1x2048, .f32⟩ : BufTy).Contents (Elt F) → (⟨S8192x1x2048, .f32⟩ : BufTy).Contents (Elt F) → (⟨S8192x1x2048, .f32⟩ : BufTy).Contents (Elt F)),
    binary main_v91 main_v93 main_v95 (subf : (⟨S8192x1x2048, .f32⟩ : BufTy).Contents (Elt F) → (⟨S8192x1x2048, .f32⟩ : BufTy).Contents (Elt F) → (⟨S8192x1x2048, .f32⟩ : BufTy).Contents (Elt F)),
    binary main_v94 main_v95 main_v96 ((fun a b => concatenate S8192x1x4096 2 [⟨S8192x1x2048, a⟩, ⟨S8192x1x2048, b⟩] concatenates_S8192x1x2048_S8192x1x2048_S8192x1x4096_d2) : (⟨S8192x1x2048, .f32⟩ : BufTy).Contents (Elt F) → (⟨S8192x1x2048, .f32⟩ : BufTy).Contents (Elt F) → (⟨S8192x1x4096, .f32⟩ : BufTy).Contents (Elt F)),
    reshape main_v96 main_v97 rfl shapeCasts_S8192x1x4096_S4x2048x4096,
    nullary main_cst (constant S_ .f32 0x3C800000#32),
    unary main_cst main_v98 (broadcastInDim S4x2048x4096 ![] bcast_S_S4x2048x4096 : (⟨S_, .f32⟩ : BufTy).Contents (Elt F) → (⟨S4x2048x4096, .f32⟩ : BufTy).Contents (Elt F)),
    binary main_v97 main_v98 main_v99 (mulf : (⟨S4x2048x4096, .f32⟩ : BufTy).Contents (Elt F) → (⟨S4x2048x4096, .f32⟩ : BufTy).Contents (Elt F) → (⟨S4x2048x4096, .f32⟩ : BufTy).Contents (Elt F)) ]

/-! ## Each stage's value, of the buffer the stage before wrote -/

/-- After the two reshapes: the argument as 8192 rows of 2048 pairs of width 1. -/
def res_main_v1 (V0 : Valuation τ sig (Elt F)) : (Proc.devRef .tc main_v1 : DevRef τ sig).ty.Contents (Elt F) :=
  shapeCast _ (shapeCast _ (V0 (Proc.devRef .tc main_arg0)) shapeCasts_S4x2048x4096_S8192x4096x1) shapeCasts_S8192x4096x1_S8192x2048x2x1

set_option maxRecDepth 8192 in
/-- Stage 0: the first halves of the pairs held in `main_v1`. -/
def res_main_v3 (V0 : Valuation τ sig (Elt F)) : (Proc.devRef .tc main_v3 : DevRef τ sig).ty.Contents (Elt F) :=
  shapeCast _ (extractStridedSlice S8192x2048x1x1 ![0, 0, 0, 0] (V0 (Proc.devRef .tc main_v1)) slices_S8192x2048x2x1_S8192x2048x1x1_0_0_0_0) shapeCasts_S8192x2048x1x1_S8192x2048x1

set_option maxRecDepth 8192 in
/-- Stage 0: the second halves of the pairs held in `main_v1`. -/
def res_main_v5 (V0 : Valuation τ sig (Elt F)) : (Proc.devRef .tc main_v5 : DevRef τ sig).ty.Contents (Elt F) :=
  shapeCast _ (extractStridedSlice S8192x2048x1x1 ![0, 0, 1, 0] (V0 (Proc.devRef .tc main_v1)) slices_S8192x2048x2x1_S8192x2048x1x1_0_0_1_0) shapeCasts_S8192x2048x1x1_S8192x2048x1

set_option maxRecDepth 8192 in
/-- Stage 0: sum and difference side by side, regrouped in pairs. -/
def res_main_v9 (V0 : Valuation τ sig (Elt F)) : (Proc.devRef .tc main_v9 : DevRef τ sig).ty.Contents (Elt F) :=
  shapeCast _ (concatenate S8192x2048x2 2 [⟨S8192x2048x1, (addf (res_main_v3 V0) (res_main_v5 V0))⟩, ⟨S8192x2048x1, (subf (res_main_v3 V0) (res_main_v5 V0))⟩] concatenates_S8192x2048x1_S8192x2048x1_S8192x2048x2_d2) shapeCasts_S8192x2048x2_S8192x1024x2x2

set_option maxRecDepth 8192 in
/-- Stage 1: the first halves of the pairs held in `main_v9`. -/
def res_main_v11 (V0 : Valuation τ sig (Elt F)) : (Proc.devRef .tc main_v11 : DevRef τ sig).ty.Contents (Elt F) :=
  shapeCast _ (extractStridedSlice S8192x1024x1x2 ![0, 0, 0, 0] (V0 (Proc.devRef .tc main_v9)) slices_S8192x1024x2x2_S8192x1024x1x2_0_0_0_0) shapeCasts_S8192x1024x1x2_S8192x1024x2

set_option maxRecDepth 8192 in
/-- Stage 1: the second halves of the pairs held in `main_v9`. -/
def res_main_v13 (V0 : Valuation τ sig (Elt F)) : (Proc.devRef .tc main_v13 : DevRef τ sig).ty.Contents (Elt F) :=
  shapeCast _ (extractStridedSlice S8192x1024x1x2 ![0, 0, 1, 0] (V0 (Proc.devRef .tc main_v9)) slices_S8192x1024x2x2_S8192x1024x1x2_0_0_1_0) shapeCasts_S8192x1024x1x2_S8192x1024x2

set_option maxRecDepth 8192 in
/-- Stage 1: sum and difference side by side, regrouped in pairs. -/
def res_main_v17 (V0 : Valuation τ sig (Elt F)) : (Proc.devRef .tc main_v17 : DevRef τ sig).ty.Contents (Elt F) :=
  shapeCast _ (concatenate S8192x1024x4 2 [⟨S8192x1024x2, (addf (res_main_v11 V0) (res_main_v13 V0))⟩, ⟨S8192x1024x2, (subf (res_main_v11 V0) (res_main_v13 V0))⟩] concatenates_S8192x1024x2_S8192x1024x2_S8192x1024x4_d2) shapeCasts_S8192x1024x4_S8192x512x2x4

set_option maxRecDepth 8192 in
/-- Stage 2: the first halves of the pairs held in `main_v17`. -/
def res_main_v19 (V0 : Valuation τ sig (Elt F)) : (Proc.devRef .tc main_v19 : DevRef τ sig).ty.Contents (Elt F) :=
  shapeCast _ (extractStridedSlice S8192x512x1x4 ![0, 0, 0, 0] (V0 (Proc.devRef .tc main_v17)) slices_S8192x512x2x4_S8192x512x1x4_0_0_0_0) shapeCasts_S8192x512x1x4_S8192x512x4

set_option maxRecDepth 8192 in
/-- Stage 2: the second halves of the pairs held in `main_v17`. -/
def res_main_v21 (V0 : Valuation τ sig (Elt F)) : (Proc.devRef .tc main_v21 : DevRef τ sig).ty.Contents (Elt F) :=
  shapeCast _ (extractStridedSlice S8192x512x1x4 ![0, 0, 1, 0] (V0 (Proc.devRef .tc main_v17)) slices_S8192x512x2x4_S8192x512x1x4_0_0_1_0) shapeCasts_S8192x512x1x4_S8192x512x4

set_option maxRecDepth 8192 in
/-- Stage 2: sum and difference side by side, regrouped in pairs. -/
def res_main_v25 (V0 : Valuation τ sig (Elt F)) : (Proc.devRef .tc main_v25 : DevRef τ sig).ty.Contents (Elt F) :=
  shapeCast _ (concatenate S8192x512x8 2 [⟨S8192x512x4, (addf (res_main_v19 V0) (res_main_v21 V0))⟩, ⟨S8192x512x4, (subf (res_main_v19 V0) (res_main_v21 V0))⟩] concatenates_S8192x512x4_S8192x512x4_S8192x512x8_d2) shapeCasts_S8192x512x8_S8192x256x2x8

set_option maxRecDepth 8192 in
/-- Stage 3: the first halves of the pairs held in `main_v25`. -/
def res_main_v27 (V0 : Valuation τ sig (Elt F)) : (Proc.devRef .tc main_v27 : DevRef τ sig).ty.Contents (Elt F) :=
  shapeCast _ (extractStridedSlice S8192x256x1x8 ![0, 0, 0, 0] (V0 (Proc.devRef .tc main_v25)) slices_S8192x256x2x8_S8192x256x1x8_0_0_0_0) shapeCasts_S8192x256x1x8_S8192x256x8

set_option maxRecDepth 8192 in
/-- Stage 3: the second halves of the pairs held in `main_v25`. -/
def res_main_v29 (V0 : Valuation τ sig (Elt F)) : (Proc.devRef .tc main_v29 : DevRef τ sig).ty.Contents (Elt F) :=
  shapeCast _ (extractStridedSlice S8192x256x1x8 ![0, 0, 1, 0] (V0 (Proc.devRef .tc main_v25)) slices_S8192x256x2x8_S8192x256x1x8_0_0_1_0) shapeCasts_S8192x256x1x8_S8192x256x8

set_option maxRecDepth 8192 in
/-- Stage 3: sum and difference side by side, regrouped in pairs. -/
def res_main_v33 (V0 : Valuation τ sig (Elt F)) : (Proc.devRef .tc main_v33 : DevRef τ sig).ty.Contents (Elt F) :=
  shapeCast _ (concatenate S8192x256x16 2 [⟨S8192x256x8, (addf (res_main_v27 V0) (res_main_v29 V0))⟩, ⟨S8192x256x8, (subf (res_main_v27 V0) (res_main_v29 V0))⟩] concatenates_S8192x256x8_S8192x256x8_S8192x256x16_d2) shapeCasts_S8192x256x16_S8192x128x2x16

set_option maxRecDepth 8192 in
/-- Stage 4: the first halves of the pairs held in `main_v33`. -/
def res_main_v35 (V0 : Valuation τ sig (Elt F)) : (Proc.devRef .tc main_v35 : DevRef τ sig).ty.Contents (Elt F) :=
  shapeCast _ (extractStridedSlice S8192x128x1x16 ![0, 0, 0, 0] (V0 (Proc.devRef .tc main_v33)) slices_S8192x128x2x16_S8192x128x1x16_0_0_0_0) shapeCasts_S8192x128x1x16_S8192x128x16

set_option maxRecDepth 8192 in
/-- Stage 4: the second halves of the pairs held in `main_v33`. -/
def res_main_v37 (V0 : Valuation τ sig (Elt F)) : (Proc.devRef .tc main_v37 : DevRef τ sig).ty.Contents (Elt F) :=
  shapeCast _ (extractStridedSlice S8192x128x1x16 ![0, 0, 1, 0] (V0 (Proc.devRef .tc main_v33)) slices_S8192x128x2x16_S8192x128x1x16_0_0_1_0) shapeCasts_S8192x128x1x16_S8192x128x16

set_option maxRecDepth 8192 in
/-- Stage 4: sum and difference side by side, regrouped in pairs. -/
def res_main_v41 (V0 : Valuation τ sig (Elt F)) : (Proc.devRef .tc main_v41 : DevRef τ sig).ty.Contents (Elt F) :=
  shapeCast _ (concatenate S8192x128x32 2 [⟨S8192x128x16, (addf (res_main_v35 V0) (res_main_v37 V0))⟩, ⟨S8192x128x16, (subf (res_main_v35 V0) (res_main_v37 V0))⟩] concatenates_S8192x128x16_S8192x128x16_S8192x128x32_d2) shapeCasts_S8192x128x32_S8192x64x2x32

set_option maxRecDepth 8192 in
/-- Stage 5: the first halves of the pairs held in `main_v41`. -/
def res_main_v43 (V0 : Valuation τ sig (Elt F)) : (Proc.devRef .tc main_v43 : DevRef τ sig).ty.Contents (Elt F) :=
  shapeCast _ (extractStridedSlice S8192x64x1x32 ![0, 0, 0, 0] (V0 (Proc.devRef .tc main_v41)) slices_S8192x64x2x32_S8192x64x1x32_0_0_0_0) shapeCasts_S8192x64x1x32_S8192x64x32

set_option maxRecDepth 8192 in
/-- Stage 5: the second halves of the pairs held in `main_v41`. -/
def res_main_v45 (V0 : Valuation τ sig (Elt F)) : (Proc.devRef .tc main_v45 : DevRef τ sig).ty.Contents (Elt F) :=
  shapeCast _ (extractStridedSlice S8192x64x1x32 ![0, 0, 1, 0] (V0 (Proc.devRef .tc main_v41)) slices_S8192x64x2x32_S8192x64x1x32_0_0_1_0) shapeCasts_S8192x64x1x32_S8192x64x32

set_option maxRecDepth 8192 in
/-- Stage 5: sum and difference side by side, regrouped in pairs. -/
def res_main_v49 (V0 : Valuation τ sig (Elt F)) : (Proc.devRef .tc main_v49 : DevRef τ sig).ty.Contents (Elt F) :=
  shapeCast _ (concatenate S8192x64x64 2 [⟨S8192x64x32, (addf (res_main_v43 V0) (res_main_v45 V0))⟩, ⟨S8192x64x32, (subf (res_main_v43 V0) (res_main_v45 V0))⟩] concatenates_S8192x64x32_S8192x64x32_S8192x64x64_d2) shapeCasts_S8192x64x64_S8192x32x2x64

set_option maxRecDepth 8192 in
/-- Stage 6: the first halves of the pairs held in `main_v49`. -/
def res_main_v51 (V0 : Valuation τ sig (Elt F)) : (Proc.devRef .tc main_v51 : DevRef τ sig).ty.Contents (Elt F) :=
  shapeCast _ (extractStridedSlice S8192x32x1x64 ![0, 0, 0, 0] (V0 (Proc.devRef .tc main_v49)) slices_S8192x32x2x64_S8192x32x1x64_0_0_0_0) shapeCasts_S8192x32x1x64_S8192x32x64

set_option maxRecDepth 8192 in
/-- Stage 6: the second halves of the pairs held in `main_v49`. -/
def res_main_v53 (V0 : Valuation τ sig (Elt F)) : (Proc.devRef .tc main_v53 : DevRef τ sig).ty.Contents (Elt F) :=
  shapeCast _ (extractStridedSlice S8192x32x1x64 ![0, 0, 1, 0] (V0 (Proc.devRef .tc main_v49)) slices_S8192x32x2x64_S8192x32x1x64_0_0_1_0) shapeCasts_S8192x32x1x64_S8192x32x64

set_option maxRecDepth 8192 in
/-- Stage 6: sum and difference side by side, regrouped in pairs. -/
def res_main_v57 (V0 : Valuation τ sig (Elt F)) : (Proc.devRef .tc main_v57 : DevRef τ sig).ty.Contents (Elt F) :=
  shapeCast _ (concatenate S8192x32x128 2 [⟨S8192x32x64, (addf (res_main_v51 V0) (res_main_v53 V0))⟩, ⟨S8192x32x64, (subf (res_main_v51 V0) (res_main_v53 V0))⟩] concatenates_S8192x32x64_S8192x32x64_S8192x32x128_d2) shapeCasts_S8192x32x128_S8192x16x2x128

set_option maxRecDepth 8192 in
/-- Stage 7: the first halves of the pairs held in `main_v57`. -/
def res_main_v59 (V0 : Valuation τ sig (Elt F)) : (Proc.devRef .tc main_v59 : DevRef τ sig).ty.Contents (Elt F) :=
  shapeCast _ (extractStridedSlice S8192x16x1x128 ![0, 0, 0, 0] (V0 (Proc.devRef .tc main_v57)) slices_S8192x16x2x128_S8192x16x1x128_0_0_0_0) shapeCasts_S8192x16x1x128_S8192x16x128

set_option maxRecDepth 8192 in
/-- Stage 7: the second halves of the pairs held in `main_v57`. -/
def res_main_v61 (V0 : Valuation τ sig (Elt F)) : (Proc.devRef .tc main_v61 : DevRef τ sig).ty.Contents (Elt F) :=
  shapeCast _ (extractStridedSlice S8192x16x1x128 ![0, 0, 1, 0] (V0 (Proc.devRef .tc main_v57)) slices_S8192x16x2x128_S8192x16x1x128_0_0_1_0) shapeCasts_S8192x16x1x128_S8192x16x128

set_option maxRecDepth 8192 in
/-- Stage 7: sum and difference side by side, regrouped in pairs. -/
def res_main_v65 (V0 : Valuation τ sig (Elt F)) : (Proc.devRef .tc main_v65 : DevRef τ sig).ty.Contents (Elt F) :=
  shapeCast _ (concatenate S8192x16x256 2 [⟨S8192x16x128, (addf (res_main_v59 V0) (res_main_v61 V0))⟩, ⟨S8192x16x128, (subf (res_main_v59 V0) (res_main_v61 V0))⟩] concatenates_S8192x16x128_S8192x16x128_S8192x16x256_d2) shapeCasts_S8192x16x256_S8192x8x2x256

set_option maxRecDepth 8192 in
/-- Stage 8: the first halves of the pairs held in `main_v65`. -/
def res_main_v67 (V0 : Valuation τ sig (Elt F)) : (Proc.devRef .tc main_v67 : DevRef τ sig).ty.Contents (Elt F) :=
  shapeCast _ (extractStridedSlice S8192x8x1x256 ![0, 0, 0, 0] (V0 (Proc.devRef .tc main_v65)) slices_S8192x8x2x256_S8192x8x1x256_0_0_0_0) shapeCasts_S8192x8x1x256_S8192x8x256

set_option maxRecDepth 8192 in
/-- Stage 8: the second halves of the pairs held in `main_v65`. -/
def res_main_v69 (V0 : Valuation τ sig (Elt F)) : (Proc.devRef .tc main_v69 : DevRef τ sig).ty.Contents (Elt F) :=
  shapeCast _ (extractStridedSlice S8192x8x1x256 ![0, 0, 1, 0] (V0 (Proc.devRef .tc main_v65)) slices_S8192x8x2x256_S8192x8x1x256_0_0_1_0) shapeCasts_S8192x8x1x256_S8192x8x256

set_option maxRecDepth 8192 in
/-- Stage 8: sum and difference side by side, regrouped in pairs. -/
def res_main_v73 (V0 : Valuation τ sig (Elt F)) : (Proc.devRef .tc main_v73 : DevRef τ sig).ty.Contents (Elt F) :=
  shapeCast _ (concatenate S8192x8x512 2 [⟨S8192x8x256, (addf (res_main_v67 V0) (res_main_v69 V0))⟩, ⟨S8192x8x256, (subf (res_main_v67 V0) (res_main_v69 V0))⟩] concatenates_S8192x8x256_S8192x8x256_S8192x8x512_d2) shapeCasts_S8192x8x512_S8192x4x2x512

set_option maxRecDepth 8192 in
/-- Stage 9: the first halves of the pairs held in `main_v73`. -/
def res_main_v75 (V0 : Valuation τ sig (Elt F)) : (Proc.devRef .tc main_v75 : DevRef τ sig).ty.Contents (Elt F) :=
  shapeCast _ (extractStridedSlice S8192x4x1x512 ![0, 0, 0, 0] (V0 (Proc.devRef .tc main_v73)) slices_S8192x4x2x512_S8192x4x1x512_0_0_0_0) shapeCasts_S8192x4x1x512_S8192x4x512

set_option maxRecDepth 8192 in
/-- Stage 9: the second halves of the pairs held in `main_v73`. -/
def res_main_v77 (V0 : Valuation τ sig (Elt F)) : (Proc.devRef .tc main_v77 : DevRef τ sig).ty.Contents (Elt F) :=
  shapeCast _ (extractStridedSlice S8192x4x1x512 ![0, 0, 1, 0] (V0 (Proc.devRef .tc main_v73)) slices_S8192x4x2x512_S8192x4x1x512_0_0_1_0) shapeCasts_S8192x4x1x512_S8192x4x512

set_option maxRecDepth 8192 in
/-- Stage 9: sum and difference side by side, regrouped in pairs. -/
def res_main_v81 (V0 : Valuation τ sig (Elt F)) : (Proc.devRef .tc main_v81 : DevRef τ sig).ty.Contents (Elt F) :=
  shapeCast _ (concatenate S8192x4x1024 2 [⟨S8192x4x512, (addf (res_main_v75 V0) (res_main_v77 V0))⟩, ⟨S8192x4x512, (subf (res_main_v75 V0) (res_main_v77 V0))⟩] concatenates_S8192x4x512_S8192x4x512_S8192x4x1024_d2) shapeCasts_S8192x4x1024_S8192x2x2x1024

set_option maxRecDepth 8192 in
/-- Stage 10: the first halves of the pairs held in `main_v81`. -/
def res_main_v83 (V0 : Valuation τ sig (Elt F)) : (Proc.devRef .tc main_v83 : DevRef τ sig).ty.Contents (Elt F) :=
  shapeCast _ (extractStridedSlice S8192x2x1x1024 ![0, 0, 0, 0] (V0 (Proc.devRef .tc main_v81)) slices_S8192x2x2x1024_S8192x2x1x1024_0_0_0_0) shapeCasts_S8192x2x1x1024_S8192x2x1024

set_option maxRecDepth 8192 in
/-- Stage 10: the second halves of the pairs held in `main_v81`. -/
def res_main_v85 (V0 : Valuation τ sig (Elt F)) : (Proc.devRef .tc main_v85 : DevRef τ sig).ty.Contents (Elt F) :=
  shapeCast _ (extractStridedSlice S8192x2x1x1024 ![0, 0, 1, 0] (V0 (Proc.devRef .tc main_v81)) slices_S8192x2x2x1024_S8192x2x1x1024_0_0_1_0) shapeCasts_S8192x2x1x1024_S8192x2x1024

set_option maxRecDepth 8192 in
/-- Stage 10: sum and difference side by side, regrouped in pairs. -/
def res_main_v89 (V0 : Valuation τ sig (Elt F)) : (Proc.devRef .tc main_v89 : DevRef τ sig).ty.Contents (Elt F) :=
  shapeCast _ (concatenate S8192x2x2048 2 [⟨S8192x2x1024, (addf (res_main_v83 V0) (res_main_v85 V0))⟩, ⟨S8192x2x1024, (subf (res_main_v83 V0) (res_main_v85 V0))⟩] concatenates_S8192x2x1024_S8192x2x1024_S8192x2x2048_d2) shapeCasts_S8192x2x2048_S8192x1x2x2048

set_option maxRecDepth 8192 in
/-- Stage 11: the first halves of the pairs held in `main_v89`. -/
def res_main_v91 (V0 : Valuation τ sig (Elt F)) : (Proc.devRef .tc main_v91 : DevRef τ sig).ty.Contents (Elt F) :=
  shapeCast _ (extractStridedSlice S8192x1x1x2048 ![0, 0, 0, 0] (V0 (Proc.devRef .tc main_v89)) slices_S8192x1x2x2048_S8192x1x1x2048_0_0_0_0) shapeCasts_S8192x1x1x2048_S8192x1x2048

set_option maxRecDepth 8192 in
/-- Stage 11: the second halves of the pairs held in `main_v89`. -/
def res_main_v93 (V0 : Valuation τ sig (Elt F)) : (Proc.devRef .tc main_v93 : DevRef τ sig).ty.Contents (Elt F) :=
  shapeCast _ (extractStridedSlice S8192x1x1x2048 ![0, 0, 1, 0] (V0 (Proc.devRef .tc main_v89)) slices_S8192x1x2x2048_S8192x1x1x2048_0_0_1_0) shapeCasts_S8192x1x1x2048_S8192x1x2048

set_option maxRecDepth 8192 in
/-- The result: stage 11's sum and difference side by side, reshaped to the argument's extents, times the constant. -/
def res_out (V0 : Valuation τ sig (Elt F)) : (Proc.devRef .tc main_v99 : DevRef τ sig).ty.Contents (Elt F) :=
  mulf (shapeCast _ (concatenate S8192x1x4096 2 [⟨S8192x1x2048, (addf (res_main_v91 V0) (res_main_v93 V0))⟩, ⟨S8192x1x2048, (subf (res_main_v91 V0) (res_main_v93 V0))⟩] concatenates_S8192x1x2048_S8192x1x2048_S8192x1x4096_d2) shapeCasts_S8192x1x4096_S4x2048x4096) (broadcastInDim S4x2048x4096 ![] bcast_S_S4x2048x4096 (constant S_ .f32 0x3C800000#32))

/-! ## The pieces run -/

/-- A line of operations run in two parts. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 8192 in
theorem ops_split : (ops : List (HloOp τ sig (Elt F))) = pre ++ (st0 ++ (st1 ++ (st2 ++ (st3 ++ (st4 ++ (st5 ++ (st6 ++ (st7 ++ (st8 ++ (st9 ++ (st10 ++ (last)))))))))))) := rfl

set_option maxRecDepth 8192 in
theorem pre_out (V0 : Valuation τ sig (Elt F)) : after pre V0 (Proc.devRef .tc main_v1) = res_main_v1 V0 := by
  after_results <;> rfl

set_option maxRecDepth 8192 in
theorem pre_arg0 (V0 : Valuation τ sig (Elt F)) : after pre V0 (Proc.devRef .tc main_arg0) = V0 (Proc.devRef .tc main_arg0) := by
  after_results <;> rfl

set_option maxRecDepth 8192 in
theorem st0_out (V0 : Valuation τ sig (Elt F)) : after st0 V0 (Proc.devRef .tc main_v9) = res_main_v9 V0 := by
  after_results <;> rfl

set_option maxRecDepth 8192 in
theorem st0_arg0 (V0 : Valuation τ sig (Elt F)) : after st0 V0 (Proc.devRef .tc main_arg0) = V0 (Proc.devRef .tc main_arg0) := by
  after_results <;> rfl

set_option maxRecDepth 8192 in
theorem st1_out (V0 : Valuation τ sig (Elt F)) : after st1 V0 (Proc.devRef .tc main_v17) = res_main_v17 V0 := by
  after_results <;> rfl

set_option maxRecDepth 8192 in
theorem st1_arg0 (V0 : Valuation τ sig (Elt F)) : after st1 V0 (Proc.devRef .tc main_arg0) = V0 (Proc.devRef .tc main_arg0) := by
  after_results <;> rfl

set_option maxRecDepth 8192 in
theorem st2_out (V0 : Valuation τ sig (Elt F)) : after st2 V0 (Proc.devRef .tc main_v25) = res_main_v25 V0 := by
  after_results <;> rfl

set_option maxRecDepth 8192 in
theorem st2_arg0 (V0 : Valuation τ sig (Elt F)) : after st2 V0 (Proc.devRef .tc main_arg0) = V0 (Proc.devRef .tc main_arg0) := by
  after_results <;> rfl

set_option maxRecDepth 8192 in
theorem st3_out (V0 : Valuation τ sig (Elt F)) : after st3 V0 (Proc.devRef .tc main_v33) = res_main_v33 V0 := by
  after_results <;> rfl

set_option maxRecDepth 8192 in
theorem st3_arg0 (V0 : Valuation τ sig (Elt F)) : after st3 V0 (Proc.devRef .tc main_arg0) = V0 (Proc.devRef .tc main_arg0) := by
  after_results <;> rfl

set_option maxRecDepth 8192 in
theorem st4_out (V0 : Valuation τ sig (Elt F)) : after st4 V0 (Proc.devRef .tc main_v41) = res_main_v41 V0 := by
  after_results <;> rfl

set_option maxRecDepth 8192 in
theorem st4_arg0 (V0 : Valuation τ sig (Elt F)) : after st4 V0 (Proc.devRef .tc main_arg0) = V0 (Proc.devRef .tc main_arg0) := by
  after_results <;> rfl

set_option maxRecDepth 8192 in
theorem st5_out (V0 : Valuation τ sig (Elt F)) : after st5 V0 (Proc.devRef .tc main_v49) = res_main_v49 V0 := by
  after_results <;> rfl

set_option maxRecDepth 8192 in
theorem st5_arg0 (V0 : Valuation τ sig (Elt F)) : after st5 V0 (Proc.devRef .tc main_arg0) = V0 (Proc.devRef .tc main_arg0) := by
  after_results <;> rfl

set_option maxRecDepth 8192 in
theorem st6_out (V0 : Valuation τ sig (Elt F)) : after st6 V0 (Proc.devRef .tc main_v57) = res_main_v57 V0 := by
  after_results <;> rfl

set_option maxRecDepth 8192 in
theorem st6_arg0 (V0 : Valuation τ sig (Elt F)) : after st6 V0 (Proc.devRef .tc main_arg0) = V0 (Proc.devRef .tc main_arg0) := by
  after_results <;> rfl

set_option maxRecDepth 8192 in
theorem st7_out (V0 : Valuation τ sig (Elt F)) : after st7 V0 (Proc.devRef .tc main_v65) = res_main_v65 V0 := by
  after_results <;> rfl

set_option maxRecDepth 8192 in
theorem st7_arg0 (V0 : Valuation τ sig (Elt F)) : after st7 V0 (Proc.devRef .tc main_arg0) = V0 (Proc.devRef .tc main_arg0) := by
  after_results <;> rfl

set_option maxRecDepth 8192 in
theorem st8_out (V0 : Valuation τ sig (Elt F)) : after st8 V0 (Proc.devRef .tc main_v73) = res_main_v73 V0 := by
  after_results <;> rfl

set_option maxRecDepth 8192 in
theorem st8_arg0 (V0 : Valuation τ sig (Elt F)) : after st8 V0 (Proc.devRef .tc main_arg0) = V0 (Proc.devRef .tc main_arg0) := by
  after_results <;> rfl

set_option maxRecDepth 8192 in
theorem st9_out (V0 : Valuation τ sig (Elt F)) : after st9 V0 (Proc.devRef .tc main_v81) = res_main_v81 V0 := by
  after_results <;> rfl

set_option maxRecDepth 8192 in
theorem st9_arg0 (V0 : Valuation τ sig (Elt F)) : after st9 V0 (Proc.devRef .tc main_arg0) = V0 (Proc.devRef .tc main_arg0) := by
  after_results <;> rfl

set_option maxRecDepth 8192 in
theorem st10_out (V0 : Valuation τ sig (Elt F)) : after st10 V0 (Proc.devRef .tc main_v89) = res_main_v89 V0 := by
  after_results <;> rfl

set_option maxRecDepth 8192 in
theorem st10_arg0 (V0 : Valuation τ sig (Elt F)) : after st10 V0 (Proc.devRef .tc main_arg0) = V0 (Proc.devRef .tc main_arg0) := by
  after_results <;> rfl

set_option maxRecDepth 8192 in
theorem last_out (V0 : Valuation τ sig (Elt F)) : after last V0 (Proc.devRef .tc main_v99) = res_out V0 := by
  after_results <;> rfl

set_option maxRecDepth 8192 in
theorem last_arg0 (V0 : Valuation τ sig (Elt F)) : after last V0 (Proc.devRef .tc main_arg0) = V0 (Proc.devRef .tc main_arg0) := by
  after_results <;> rfl

/-- The valuation at the start of each stage, from the launch contents. -/
def at0 (V0 : Valuation τ sig (Elt F)) : Valuation τ sig (Elt F) := after pre V0
def at1 (V0 : Valuation τ sig (Elt F)) : Valuation τ sig (Elt F) := after st0 (at0 V0)
def at2 (V0 : Valuation τ sig (Elt F)) : Valuation τ sig (Elt F) := after st1 (at1 V0)
def at3 (V0 : Valuation τ sig (Elt F)) : Valuation τ sig (Elt F) := after st2 (at2 V0)
def at4 (V0 : Valuation τ sig (Elt F)) : Valuation τ sig (Elt F) := after st3 (at3 V0)
def at5 (V0 : Valuation τ sig (Elt F)) : Valuation τ sig (Elt F) := after st4 (at4 V0)
def at6 (V0 : Valuation τ sig (Elt F)) : Valuation τ sig (Elt F) := after st5 (at5 V0)
def at7 (V0 : Valuation τ sig (Elt F)) : Valuation τ sig (Elt F) := after st6 (at6 V0)
def at8 (V0 : Valuation τ sig (Elt F)) : Valuation τ sig (Elt F) := after st7 (at7 V0)
def at9 (V0 : Valuation τ sig (Elt F)) : Valuation τ sig (Elt F) := after st8 (at8 V0)
def at10 (V0 : Valuation τ sig (Elt F)) : Valuation τ sig (Elt F) := after st9 (at9 V0)
def at11 (V0 : Valuation τ sig (Elt F)) : Valuation τ sig (Elt F) := after st10 (at10 V0)

/-- The whole line, stage by stage. -/
theorem after_ops (V0 : Valuation τ sig (Elt F)) : after ops V0 = after last (at11 V0) := by
  rw [ops_split]
  simp only [after_append]
  rfl

/-- The result buffer after the whole line. -/
theorem out_eq (V0 : Valuation τ sig (Elt F)) : after ops V0 (Proc.devRef .tc main_v99) = res_out (at11 V0) := by
  rw [after_ops, last_out]

/-- No operation writes the argument. -/
theorem arg0_kept (V0 : Valuation τ sig (Elt F)) : after ops V0 (Proc.devRef .tc main_arg0) = V0 (Proc.devRef .tc main_arg0) := by
  rw [after_ops, last_arg0]
  unfold at11 at10 at9 at8 at7 at6 at5 at4 at3 at2 at1 at0
  rw [st10_arg0, st9_arg0, st8_arg0, st7_arg0, st6_arg0, st5_arg0, st4_arg0, st3_arg0, st2_arg0, st1_arg0, st0_arg0, pre_arg0]

/-- On every device, from any memory with zero counters: every weakly fair execution of @main terminates with the
    result buffer at the operations' value of the launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = res_out (at11 (launchContents m c))
      ∧ r.2.mem ((c.tc : Thread nD τ).loc main_arg0) = m ((c.tc : Thread nD τ).loc main_arg0) :=
  (θ_run defs _ _).mono (fun _ h c => ⟨(h c main_v99).trans (out_eq _), (h c main_arg0).trans (arg0_kept _)⟩)
    (run_seq scopedRefs_eq scopedSems_eq defs main (fun _ => ops) main_eq (fun _ => ops_sub) m ρ)

end Cert.Wht.RefRun

end
-- ==== Proof.RefStage.lean ====
/-
  One butterfly stage of the reference, for any sizes.

  The reference keeps a row of 4096 numbers as `h` pairs of short rows of width `k`: an array of extents
  (B, h, 2, k) whose entry (b, p, e, q) is entry q of short row 2 p + e of row b.  A stage cuts out the two
  halves e = 0 and e = 1, adds and subtracts them, lays sum and difference side by side (width 2 k), and regroups
  the h rows of width 2 k as h / 2 pairs.  Read index by index this is `bstep k` applied to every row's state.
-/
import Idealize.ShloMosaic.PureOps.Ideal
import Idealize.ShloMosaic.Lib.ValueIdx
import Idealize.ShloMosaic.Lib.ValueLayout
import Idealize.ShloMosaic.Lib.Pipeline.Value
import proofs.«177755_j40243843564261_2_alg».proof.Proof.Spec

noncomputable section

namespace Cert.Wht

open Idealize.ShloMosaic Idealize.ShloMosaic.ValueIdx

variable {B h k : ℕ}

/-- An array of extents (B, h, 2, k) holds the real states `Y b` of its rows: entry (b, p, e, q) is `Y b (2 p + e) q`. -/
def Holds4 (W : FVec Ideal ⟨4, ![B, h, 2, k]⟩ .f32) (Y : ℕ → ℕ → ℕ → ℝ) : Prop :=
  ∀ (b : Fin B) (p : Fin h) (e : Fin 2) (q : Fin k),
    (W (ix4 b p e q) : EReal) = ((Y b.val (2 * p.val + e.val) q.val : ℝ) : EReal)

/-- An array of extents (B, h, k) holds the real states `Y b`: entry (b, p, q) is `Y b p q`. -/
def Holds3 (C : FVec Ideal ⟨3, ![B, h, k]⟩ .f32) (Y : ℕ → ℕ → ℕ → ℝ) : Prop :=
  ∀ (b : Fin B) (p : Fin h) (q : Fin k), (C (ix3 b p q) : EReal) = ((Y b.val p.val q.val : ℝ) : EReal)

/-- Half `o` of the pairs, as an array of extents (B, h, k): entry (b, p, q) is entry (b, p, o, q). -/
theorem half_apply (o : ℕ) (ho : o < 2) (W : FVec Ideal ⟨4, ![B, h, 2, k]⟩ .f32)
    (hs : (⟨4, ![B, h, 2, k]⟩ : Shape).Slices ![0, 0, o, 0] ⟨4, ![B, h, 1, k]⟩)
    (hc : (⟨4, ![B, h, 1, k]⟩ : Shape).ShapeCasts ⟨3, ![B, h, k]⟩)
    (b : Fin B) (p : Fin h) (q : Fin k) :
    shapeCast ⟨3, ![B, h, k]⟩ (extractStridedSlice ⟨4, ![B, h, 1, k]⟩ ![0, 0, o, 0] W hs) hc (ix3 b p q)
      = W (ix4 b p ⟨o, ho⟩ q) := by
  rw [shapeCast_apply _ hc (ix3 b p q) (ix4 b p (0 : Fin 1) q) (by
    rw [Shape.rowMajor_val_three, Shape.rowMajor_val_four]
    show ((b.val * h + p.val) * 1 + 0) * k + q.val = (b.val * h + p.val) * k + q.val
    ring)]
  exact slice4_axis2_apply o W hs b p (0 : Fin 1) q ⟨o, ho⟩ (by simp)

/-- Sum and difference of the two halves, side by side: one butterfly step of every row. -/
theorem halves_holds {k2 : ℕ} (hk2 : k2 = k + k) (A Bm : FVec Ideal ⟨3, ![B, h, k]⟩ .f32)
    (hcat : Shape.Concatenates [⟨3, ![B, h, k]⟩, ⟨3, ![B, h, k]⟩] ⟨3, ![B, h, k2]⟩ 2)
    (Y : ℕ → ℕ → ℕ → ℝ)
    (hA : ∀ (b : Fin B) (p : Fin h) (q : Fin k), (A (ix3 b p q) : EReal) = ((Y b.val (2 * p.val) q.val : ℝ) : EReal))
    (hB : ∀ (b : Fin B) (p : Fin h) (q : Fin k), (Bm (ix3 b p q) : EReal) = ((Y b.val (2 * p.val + 1) q.val : ℝ) : EReal)) :
    Holds3 (concatenate ⟨3, ![B, h, k2]⟩ 2 [⟨⟨3, ![B, h, k]⟩, addf A Bm⟩, ⟨⟨3, ![B, h, k]⟩, subf A Bm⟩] hcat)
      (fun b => bstep k (Y b)) := by
  intro b p q
  by_cases hq : q.val < k
  · rw [concatenate_pair_apply_left (2 : Fin 3) (addf A Bm) (subf A Bm) hcat (ix3 b p q) rfl (ix3 b p ⟨q.val, hq⟩)
      (fun ax => by match ax with | ⟨0, _⟩ => rfl | ⟨1, _⟩ => rfl | ⟨2, _⟩ => rfl)]
    rw [addf_apply, hA, hB, ← EReal.coe_add]
    simp only [bstep, if_pos hq]
  · have hq' : q.val - k < k := by have := q.isLt; omega
    rw [concatenate_pair_apply_right (2 : Fin 3) (addf A Bm) (subf A Bm) hcat (ix3 b p q) rfl rfl (ix3 b p ⟨q.val - k, hq'⟩)
      (fun ax hne => by
        match ax with
        | ⟨0, _⟩ => rfl
        | ⟨1, _⟩ => rfl
        | ⟨2, _⟩ => exact absurd rfl hne)
      (by show (q.val - k) + k = q.val; omega)]
    rw [subf_apply, hA, hB, ← EReal.coe_sub]
    simp only [bstep, if_neg hq]

/-- `h` rows of width `k2` regrouped as `h / 2` pairs: entry (b, p, e, q) is entry (b, 2 p + e, q). -/
theorem regroup_holds {h' k2 : ℕ} (hh : h = 2 * h') (C : FVec Ideal ⟨3, ![B, h, k2]⟩ .f32)
    (hsc : (⟨3, ![B, h, k2]⟩ : Shape).ShapeCasts ⟨4, ![B, h', 2, k2]⟩)
    (Y : ℕ → ℕ → ℕ → ℝ) (hC : Holds3 C Y) :
    Holds4 (shapeCast ⟨4, ![B, h', 2, k2]⟩ C hsc) Y := by
  intro b p e q
  have hp : 2 * p.val + e.val < h := by have := p.isLt; have := e.isLt; omega
  rw [shapeCast_apply C hsc (ix4 b p e q) (ix3 b ⟨2 * p.val + e.val, hp⟩ q) (by
    rw [Shape.rowMajor_val_three, Shape.rowMajor_val_four]
    show (b.val * h + (2 * p.val + e.val)) * k2 + q.val = ((b.val * h' + p.val) * 2 + e.val) * k2 + q.val
    rw [hh]; ring)]
  exact hC b ⟨_, hp⟩ q

/-- The halves of an array that holds `Y`, added and subtracted and laid side by side: one butterfly step of every row. -/
theorem sumdiff_holds {k2 : ℕ} (hk2 : k2 = k + k) (W : FVec Ideal ⟨4, ![B, h, 2, k]⟩ .f32)
    (hs0 : (⟨4, ![B, h, 2, k]⟩ : Shape).Slices ![0, 0, 0, 0] ⟨4, ![B, h, 1, k]⟩)
    (hs1 : (⟨4, ![B, h, 2, k]⟩ : Shape).Slices ![0, 0, 1, 0] ⟨4, ![B, h, 1, k]⟩)
    (hc : (⟨4, ![B, h, 1, k]⟩ : Shape).ShapeCasts ⟨3, ![B, h, k]⟩)
    (hcat : Shape.Concatenates [⟨3, ![B, h, k]⟩, ⟨3, ![B, h, k]⟩] ⟨3, ![B, h, k2]⟩ 2)
    (Y : ℕ → ℕ → ℕ → ℝ) (hW : Holds4 W Y) :
    Holds3 (concatenate ⟨3, ![B, h, k2]⟩ 2
        [⟨⟨3, ![B, h, k]⟩, addf (shapeCast ⟨3, ![B, h, k]⟩ (extractStridedSlice ⟨4, ![B, h, 1, k]⟩ ![0, 0, 0, 0] W hs0) hc)
                              (shapeCast ⟨3, ![B, h, k]⟩ (extractStridedSlice ⟨4, ![B, h, 1, k]⟩ ![0, 0, 1, 0] W hs1) hc)⟩,
         ⟨⟨3, ![B, h, k]⟩, subf (shapeCast ⟨3, ![B, h, k]⟩ (extractStridedSlice ⟨4, ![B, h, 1, k]⟩ ![0, 0, 0, 0] W hs0) hc)
                              (shapeCast ⟨3, ![B, h, k]⟩ (extractStridedSlice ⟨4, ![B, h, 1, k]⟩ ![0, 0, 1, 0] W hs1) hc)⟩] hcat)
      (fun b => bstep k (Y b)) :=
  halves_holds hk2 _ _ hcat Y
    (fun b p q => by rw [half_apply 0 (by omega) W hs0 hc b p q]; exact hW b p ⟨0, by omega⟩ q)
    (fun b p q => by rw [half_apply 1 (by omega) W hs1 hc b p q]; exact hW b p ⟨1, by omega⟩ q)

/-- A whole stage: cut the halves, add and subtract, lay side by side, regroup. -/
theorem stage_holds {h' k2 : ℕ} (hh : h = 2 * h') (hk2 : k2 = k + k) (W : FVec Ideal ⟨4, ![B, h, 2, k]⟩ .f32)
    (hs0 : (⟨4, ![B, h, 2, k]⟩ : Shape).Slices ![0, 0, 0, 0] ⟨4, ![B, h, 1, k]⟩)
    (hs1 : (⟨4, ![B, h, 2, k]⟩ : Shape).Slices ![0, 0, 1, 0] ⟨4, ![B, h, 1, k]⟩)
    (hc : (⟨4, ![B, h, 1, k]⟩ : Shape).ShapeCasts ⟨3, ![B, h, k]⟩)
    (hcat : Shape.Concatenates [⟨3, ![B, h, k]⟩, ⟨3, ![B, h, k]⟩] ⟨3, ![B, h, k2]⟩ 2)
    (hsc : (⟨3, ![B, h, k2]⟩ : Shape).ShapeCasts ⟨4, ![B, h', 2, k2]⟩)
    (Y : ℕ → ℕ → ℕ → ℝ) (hW : Holds4 W Y) :
    Holds4 (shapeCast ⟨4, ![B, h', 2, k2]⟩
      (concatenate ⟨3, ![B, h, k2]⟩ 2
        [⟨⟨3, ![B, h, k]⟩, addf (shapeCast ⟨3, ![B, h, k]⟩ (extractStridedSlice ⟨4, ![B, h, 1, k]⟩ ![0, 0, 0, 0] W hs0) hc)
                              (shapeCast ⟨3, ![B, h, k]⟩ (extractStridedSlice ⟨4, ![B, h, 1, k]⟩ ![0, 0, 1, 0] W hs1) hc)⟩,
         ⟨⟨3, ![B, h, k]⟩, subf (shapeCast ⟨3, ![B, h, k]⟩ (extractStridedSlice ⟨4, ![B, h, 1, k]⟩ ![0, 0, 0, 0] W hs0) hc)
                              (shapeCast ⟨3, ![B, h, k]⟩ (extractStridedSlice ⟨4, ![B, h, 1, k]⟩ ![0, 0, 1, 0] W hs1) hc)⟩] hcat) hsc)
      (fun b => bstep k (Y b)) :=
  regroup_holds hh _ hsc _ (sumdiff_holds hk2 W hs0 hs1 hc hcat Y hW)

end Cert.Wht

end
-- ==== Proof.RefValue.lean ====
/-
  The reference's result, index by index: the twelve butterfly stages of its run, one after the other, and the
  final scale by 1/64.  Row b = 2048 a + s of the flattened array is row (a, s) of the argument; after stage s it is
  held as pairs of short rows of width 2 ^ s (`Holds4`), and each stage is one `bstep`.
-/
import proofs.«177755_j40243843564261_2_alg».proof.Proof.RefRun
import proofs.«177755_j40243843564261_2_alg».proof.Proof.RefStage
import Idealize.ShloMosaic.Lib.IdealHost

set_option maxRecDepth 8192

noncomputable section

namespace Cert.Wht.Ref

open Cert.ReferenceIdeal Cert.ReferenceIdeal.Gen Cert.Wht.RefRun Idealize.ShloMosaic Idealize.ShloMosaic.TcCoe
  Idealize.SL.Sem Idealize.ShloMosaic.StableHlo Idealize.ShloMosaic.ValueIdx Cert.Wht

/-- Row `b` of the argument flattened to 8192 rows: row `(b / 2048, b % 2048)`, as a function of the position. -/
def rowB (xr : SX.Idx → ℝ) (b : ℕ) : ℕ → ℝ :=
  fun n => if h : b < 8192 ∧ n < 4096 then
    xr (ix3 ⟨b / 2048, by omega⟩ ⟨b % 2048, Nat.mod_lt _ (by norm_num)⟩ ⟨n, h.2⟩) else 0

theorem rowB_eq (xr : SX.Idx → ℝ) (a : Fin 4) (s : Fin 2048) : rowB xr (2048 * a.val + s.val) = rowOf xr a s := by
  funext n
  unfold rowB rowOf
  have ha := a.isLt
  have hs := s.isLt
  by_cases hn : n < 4096
  · rw [dif_pos ⟨by omega, hn⟩, dif_pos hn]
    congr 1
    have e1 : (2048 * a.val + s.val) / 2048 = a.val := by omega
    have e2 : (2048 * a.val + s.val) % 2048 = s.val := by omega
    funext d
    match d with
    | ⟨0, _⟩ => exact Fin.ext e1
    | ⟨1, _⟩ => exact Fin.ext e2
    | ⟨2, _⟩ => rfl
  · rw [dif_neg (fun h => hn h.2), dif_neg hn]

/-- Before the first stage: the argument, flattened, as 2048 pairs of short rows of width 1. -/
theorem holds0 (V0 : Valuation τ sig (Elt Ideal)) (xr : SX.Idx → ℝ)
    (hx : ∀ i : SX.Idx, (V0 (Proc.devRef .tc main_arg0) i : EReal) = ((xr i : ℝ) : EReal)) :
    Holds4 (at0 V0 (Proc.devRef .tc main_v1)) (fun b => bfly (rowB xr b) 0) := by
  intro b p e q
  unfold at0
  rw [pre_out]
  unfold res_main_v1
  have hb := b.isLt
  have hn : 2 * p.val + e.val < 4096 := by have := p.isLt; have := e.isLt; omega
  refine (shapeCast_apply _ shapeCasts_S8192x4096x1_S8192x2048x2x1 (ix4 b p e q) (ix3 b ⟨2 * p.val + e.val, hn⟩ (0 : Fin 1)) (by
    rw [Shape.rowMajor_val_three, Shape.rowMajor_val_four]
    show (b.val * 4096 + (2 * p.val + e.val)) * 1 + 0 = ((b.val * 2048 + p.val) * 2 + e.val) * 1 + q.val
    have := q.isLt; omega)).trans ?_
  refine (shapeCast_apply _ shapeCasts_S4x2048x4096_S8192x4096x1 (ix3 b ⟨2 * p.val + e.val, hn⟩ (0 : Fin 1))
    (ix3 ⟨b.val / 2048, by omega⟩ ⟨b.val % 2048, Nat.mod_lt _ (by norm_num)⟩ ⟨2 * p.val + e.val, hn⟩) (by
    rw [Shape.rowMajor_val_three, Shape.rowMajor_val_three]
    show ((b.val / 2048) * 2048 + b.val % 2048) * 4096 + (2 * p.val + e.val) = (b.val * 4096 + (2 * p.val + e.val)) * 1 + 0
    omega)).trans ?_
  refine (hx _).trans ?_
  simp only [bfly, rowB]
  rw [dif_pos ⟨hb, hn⟩]

/-- Stage 0: 2048 pairs of short rows of width 1 become 1024 pairs of width 2. -/
theorem holds1 (V0 : Valuation τ sig (Elt Ideal)) (Y : ℕ → ℕ → ℕ → ℝ) (hW : Holds4 (V0 (Proc.devRef .tc main_v1)) Y) :
    Holds4 (after st0 V0 (Proc.devRef .tc main_v9)) (fun b => bstep 1 (Y b)) := by
  rw [st0_out]
  unfold res_main_v9 res_main_v3 res_main_v5
  exact stage_holds (by norm_num) (by norm_num) _ _ _ _ _ _ Y hW

/-- Stage 1: 1024 pairs of short rows of width 2 become 512 pairs of width 4. -/
theorem holds2 (V0 : Valuation τ sig (Elt Ideal)) (Y : ℕ → ℕ → ℕ → ℝ) (hW : Holds4 (V0 (Proc.devRef .tc main_v9)) Y) :
    Holds4 (after st1 V0 (Proc.devRef .tc main_v17)) (fun b => bstep 2 (Y b)) := by
  rw [st1_out]
  unfold res_main_v17 res_main_v11 res_main_v13
  exact stage_holds (by norm_num) (by norm_num) _ _ _ _ _ _ Y hW

/-- Stage 2: 512 pairs of short rows of width 4 become 256 pairs of width 8. -/
theorem holds3 (V0 : Valuation τ sig (Elt Ideal)) (Y : ℕ → ℕ → ℕ → ℝ) (hW : Holds4 (V0 (Proc.devRef .tc main_v17)) Y) :
    Holds4 (after st2 V0 (Proc.devRef .tc main_v25)) (fun b => bstep 4 (Y b)) := by
  rw [st2_out]
  unfold res_main_v25 res_main_v19 res_main_v21
  exact stage_holds (by norm_num) (by norm_num) _ _ _ _ _ _ Y hW

/-- Stage 3: 256 pairs of short rows of width 8 become 128 pairs of width 16. -/
theorem holds4 (V0 : Valuation τ sig (Elt Ideal)) (Y : ℕ → ℕ → ℕ → ℝ) (hW : Holds4 (V0 (Proc.devRef .tc main_v25)) Y) :
    Holds4 (after st3 V0 (Proc.devRef .tc main_v33)) (fun b => bstep 8 (Y b)) := by
  rw [st3_out]
  unfold res_main_v33 res_main_v27 res_main_v29
  exact stage_holds (by norm_num) (by norm_num) _ _ _ _ _ _ Y hW

/-- Stage 4: 128 pairs of short rows of width 16 become 64 pairs of width 32. -/
theorem holds5 (V0 : Valuation τ sig (Elt Ideal)) (Y : ℕ → ℕ → ℕ → ℝ) (hW : Holds4 (V0 (Proc.devRef .tc main_v33)) Y) :
    Holds4 (after st4 V0 (Proc.devRef .tc main_v41)) (fun b => bstep 16 (Y b)) := by
  rw [st4_out]
  unfold res_main_v41 res_main_v35 res_main_v37
  exact stage_holds (by norm_num) (by norm_num) _ _ _ _ _ _ Y hW

/-- Stage 5: 64 pairs of short rows of width 32 become 32 pairs of width 64. -/
theorem holds6 (V0 : Valuation τ sig (Elt Ideal)) (Y : ℕ → ℕ → ℕ → ℝ) (hW : Holds4 (V0 (Proc.devRef .tc main_v41)) Y) :
    Holds4 (after st5 V0 (Proc.devRef .tc main_v49)) (fun b => bstep 32 (Y b)) := by
  rw [st5_out]
  unfold res_main_v49 res_main_v43 res_main_v45
  exact stage_holds (by norm_num) (by norm_num) _ _ _ _ _ _ Y hW

/-- Stage 6: 32 pairs of short rows of width 64 become 16 pairs of width 128. -/
theorem holds7 (V0 : Valuation τ sig (Elt Ideal)) (Y : ℕ → ℕ → ℕ → ℝ) (hW : Holds4 (V0 (Proc.devRef .tc main_v49)) Y) :
    Holds4 (after st6 V0 (Proc.devRef .tc main_v57)) (fun b => bstep 64 (Y b)) := by
  rw [st6_out]
  unfold res_main_v57 res_main_v51 res_main_v53
  exact stage_holds (by norm_num) (by norm_num) _ _ _ _ _ _ Y hW

/-- Stage 7: 16 pairs of short rows of width 128 become 8 pairs of width 256. -/
theorem holds8 (V0 : Valuation τ sig (Elt Ideal)) (Y : ℕ → ℕ → ℕ → ℝ) (hW : Holds4 (V0 (Proc.devRef .tc main_v57)) Y) :
    Holds4 (after st7 V0 (Proc.devRef .tc main_v65)) (fun b => bstep 128 (Y b)) := by
  rw [st7_out]
  unfold res_main_v65 res_main_v59 res_main_v61
  exact stage_holds (by norm_num) (by norm_num) _ _ _ _ _ _ Y hW

/-- Stage 8: 8 pairs of short rows of width 256 become 4 pairs of width 512. -/
theorem holds9 (V0 : Valuation τ sig (Elt Ideal)) (Y : ℕ → ℕ → ℕ → ℝ) (hW : Holds4 (V0 (Proc.devRef .tc main_v65)) Y) :
    Holds4 (after st8 V0 (Proc.devRef .tc main_v73)) (fun b => bstep 256 (Y b)) := by
  rw [st8_out]
  unfold res_main_v73 res_main_v67 res_main_v69
  exact stage_holds (by norm_num) (by norm_num) _ _ _ _ _ _ Y hW

/-- Stage 9: 4 pairs of short rows of width 512 become 2 pairs of width 1024. -/
theorem holds10 (V0 : Valuation τ sig (Elt Ideal)) (Y : ℕ → ℕ → ℕ → ℝ) (hW : Holds4 (V0 (Proc.devRef .tc main_v73)) Y) :
    Holds4 (after st9 V0 (Proc.devRef .tc main_v81)) (fun b => bstep 512 (Y b)) := by
  rw [st9_out]
  unfold res_main_v81 res_main_v75 res_main_v77
  exact stage_holds (by norm_num) (by norm_num) _ _ _ _ _ _ Y hW

/-- Stage 10: 2 pairs of short rows of width 1024 become 1 pairs of width 2048. -/
theorem holds11 (V0 : Valuation τ sig (Elt Ideal)) (Y : ℕ → ℕ → ℕ → ℝ) (hW : Holds4 (V0 (Proc.devRef .tc main_v81)) Y) :
    Holds4 (after st10 V0 (Proc.devRef .tc main_v89)) (fun b => bstep 1024 (Y b)) := by
  rw [st10_out]
  unfold res_main_v89 res_main_v83 res_main_v85
  exact stage_holds (by norm_num) (by norm_num) _ _ _ _ _ _ Y hW

/-- Stage 11: the one remaining pair of width 2048 becomes the transformed row of width 4096. -/
theorem holds12 (V0 : Valuation τ sig (Elt Ideal)) (Y : ℕ → ℕ → ℕ → ℝ) (hW : Holds4 (V0 (Proc.devRef .tc main_v89)) Y) :
    Holds3 (concatenate S8192x1x4096 2 [⟨S8192x1x2048, (addf (res_main_v91 V0) (res_main_v93 V0))⟩,
        ⟨S8192x1x2048, (subf (res_main_v91 V0) (res_main_v93 V0))⟩] concatenates_S8192x1x2048_S8192x1x2048_S8192x1x4096_d2)
      (fun b => bstep 2048 (Y b)) := by
  unfold res_main_v91 res_main_v93
  exact sumdiff_holds (by norm_num) _ _ _ _ _ Y hW

/-- All twelve stages: the transformed rows. -/
theorem holds_all (V0 : Valuation τ sig (Elt Ideal)) (xr : SX.Idx → ℝ)
    (hx : ∀ i : SX.Idx, (V0 (Proc.devRef .tc main_arg0) i : EReal) = ((xr i : ℝ) : EReal)) :
    Holds3 (concatenate S8192x1x4096 2 [⟨S8192x1x2048, (addf (res_main_v91 (at11 V0)) (res_main_v93 (at11 V0)))⟩,
        ⟨S8192x1x2048, (subf (res_main_v91 (at11 V0)) (res_main_v93 (at11 V0)))⟩] concatenates_S8192x1x2048_S8192x1x2048_S8192x1x4096_d2)
      (fun b => bfly (rowB xr b) 12) :=
  holds12 (at11 V0) _ (holds11 (at10 V0) _ (holds10 (at9 V0) _ (holds9 (at8 V0) _ (holds8 (at7 V0) _ (holds7 (at6 V0) _ (holds6 (at5 V0) _ (holds5 (at4 V0) _ (holds4 (at3 V0) _ (holds3 (at2 V0) _ (holds2 (at1 V0) _ (holds1 (at0 V0) _ (holds0 V0 xr hx))))))))))))

/-- The reference's result at coordinates (a, s, n): the transformed row (a, s) at position n, scaled by 1/64. -/
theorem result_at (V0 : Valuation τ sig (Elt Ideal)) (xr : SX.Idx → ℝ)
    (hx : ∀ i : SX.Idx, (V0 (Proc.devRef .tc main_arg0) i : EReal) = ((xr i : ℝ) : EReal))
    (a : Fin 4) (s : Fin 2048) (n : Fin 4096) :
    (res_out (at11 V0) (ix3 a s n) : EReal) = ((bfly (rowOf xr a s) 12 0 n.val * (1 / 64) : ℝ) : EReal) := by
  have ha := a.isLt
  have hs := s.isLt
  unfold res_out
  rw [mulf_apply, broadcastInDim_scalar_apply, constant_apply, ofBits_sixtyfourth]
  refine (congrArg (· * (((1 / 64 : ℝ) : ℝ) : EReal)) ((shapeCast_apply _ shapeCasts_S8192x1x4096_S4x2048x4096 (ix3 a s n)
    (ix3 (⟨2048 * a.val + s.val, by omega⟩ : Fin 8192) (0 : Fin 1) n) (by
    rw [Shape.rowMajor_val_three, Shape.rowMajor_val_three]
    show ((2048 * a.val + s.val) * 1 + 0) * 4096 + n.val = (a.val * 2048 + s.val) * 4096 + n.val
    omega)).trans (holds_all V0 xr hx ⟨2048 * a.val + s.val, by omega⟩ (0 : Fin 1) n))).trans ?_
  rw [← EReal.coe_mul]
  show ((bfly (rowB xr (2048 * a.val + s.val)) 12 0 n.val * (1 / 64) : ℝ) : EReal) = _
  rw [rowB_eq]

/-- The reference's result at an index: the transformed row of the argument, scaled by 1/64. -/
theorem result_apply (V0 : Valuation τ sig (Elt Ideal)) (xr : SX.Idx → ℝ)
    (hx : ∀ i : SX.Idx, (V0 (Proc.devRef .tc main_arg0) i : EReal) = ((xr i : ℝ) : EReal)) (j : SX.Idx) :
    (res_out (at11 V0) j : EReal) = ((bfly (rowOf xr (j 0) (j 1)) 12 0 (j 2).val * (1 / 64) : ℝ) : EReal) := by
  exact (congrArg (fun i => (res_out (at11 V0) i : EReal)) (eq_ix3 j)).trans (result_at V0 xr hx (j 0) (j 1) (j 2))

end Cert.Wht.Ref

end
-- ==== Proof.Finite.lean ====
/-
  From the precondition to real entries.  The precondition says that every entry of the argument is smaller in
  absolute value than plus infinity; an extended real with that property is a real number.
-/
import proofs.«177755_j40243843564261_2_alg».proof.Pre_finite_inputs
import Idealize.ShloMosaic.PureOps.Ideal
import Idealize.ShloMosaic.Lib.ValueIdx
import Idealize.ShloMosaic.Lib.ReduceAll
import Idealize.ShloMosaic.Lib.IdealHost
import proofs.«177755_j40243843564261_2_alg».proof.Proof.Spec

noncomputable section

namespace Cert.Wht

open Idealize.ShloMosaic Idealize.ShloMosaic.ValueIdx

/-- The pattern of plus infinity. -/
theorem ofBits_inf : Ideal.ofBits .f32 0x7F800000#32 = (⊤ : EReal) := by
  simp [Ideal.ofBits, Ideal.ieee]

instance : Subsingleton Cert.Pre_finite_inputs.S_.Idx := ⟨fun a b => funext fun d => d.elim0⟩

/-- An extended real whose absolute value is below plus infinity is neither infinity. -/
theorem ne_top_bot_of_abs_lt (y : EReal) (h : max y (-y) < ⊤) : y ≠ ⊤ ∧ y ≠ ⊥ := by
  constructor
  · rintro rfl
    simp at h
  · rintro rfl
    simp at h

/-- Under the precondition every entry of the argument is a real number. -/
theorem real_of_pre [Cert.Pre_finite_inputs.Facts] (x : FVec Ideal Cert.Pre_finite_inputs.S4x2048x4096 .f32)
    (h : Cert.Pre_finite_inputs.fn (F := Ideal) x = fun _ => 1#1) :
    ∃ xr : SX.Idx → ℝ, ∀ i : SX.Idx, (x i : EReal) = ((xr i : ℝ) : EReal) := by
  have h0 := congrFun h ix0
  dsimp only [Cert.Pre_finite_inputs.fn] at h0
  have hall : ∀ i : SX.Idx, (x i : EReal) ≠ ⊤ ∧ (x i : EReal) ≠ ⊥ := by
    intro i
    have hi := Host.reduce_andi_all _ _ _ _ ix0 h0 i
    rw [cmpf_apply, broadcastInDim_scalar_apply, constant_apply, ofBits_inf] at hi
    have hi' : Ideal.cmp .olt (max (x i : EReal) (-(x i : EReal))) ⊤ = 1#1 := hi
    have hlt : max (x i : EReal) (-(x i : EReal)) < ⊤ := by
      by_contra hn
      simp [Ideal.cmp, hn] at hi'
    exact ne_top_bot_of_abs_lt _ hlt
  exact ⟨fun i => (x i : EReal).toReal, fun i => (EReal.coe_toReal (hall i).1 (hall i).2).symm⟩

end Cert.Wht

end
-- ==== Proof.Matrix.lean ====
/-
  The 64 x 64 matrix the kernel is given is the Sylvester matrix: its entry (a, b), the word at row-major position
  64 a + b of the printed table, is the pattern of -1 when a and b share an odd number of binary digits and the
  pattern of 1 otherwise.  All 4096 entries are compared by evaluation.
-/
import proofs.«177755_j40243843564261_2_alg».proof.KernelIdeal
import Idealize.ShloMosaic.Lib.ValueIdx
import proofs.«177755_j40243843564261_2_alg».proof.Proof.Spec

noncomputable section

namespace Cert.Wht

open Idealize.ShloMosaic Idealize.ShloMosaic.ValueIdx

/-- Every entry of the table, against the sign pattern. -/
theorem table_entries : ∀ a b : Fin 64, Cert.KernelIdeal.lit0t (a.val * 64 + b.val)
    = if sylvB 6 a.val b.val then 0xBF800000#32 else 0x3F800000#32 := by
  decide +kernel

/-- Entry (a, b) of the matrix, as an extended real: the Sylvester matrix's. -/
theorem matrix_entry (a b : Fin 64) :
    Ideal.ofBits .f32 (Cert.KernelIdeal.lit0 (Cert.KernelIdeal.S64x64.rowMajor (ix2 a b))) = ((sylv a.val b.val : ℝ) : EReal) := by
  have hpos : (Cert.KernelIdeal.S64x64.rowMajor (ix2 a b)).val = a.val * 64 + b.val := by
    rw [Shape.rowMajor_val_two]; rfl
  have hl : Cert.KernelIdeal.lit0 (Cert.KernelIdeal.S64x64.rowMajor (ix2 a b)) = Cert.KernelIdeal.lit0t (a.val * 64 + b.val) := by
    rw [← hpos]
  rw [hl, table_entries a b]
  unfold sylv
  by_cases hs : sylvB 6 a.val b.val = true
  · rw [if_pos hs, if_pos hs, ofBits_neg_one]
  · rw [if_neg hs, if_neg hs, ofBits_one]

end Cert.Wht

end
-- ==== Proof.Algebra.lean ====
/-
  The real-number algebra behind the transform: the butterfly stages compute the product with the Sylvester
  matrix, and twelve stages on a row of 4096, read as a 64 x 64 matrix X, compute H X H.

  The sign pattern `sylvB` is defined by peeling the top binary digit, which is exactly the digit one more
  butterfly stage adds; so one induction on the number of stages gives, for all r and t,
      bfly f (r + t) p (q * 2 ^ r + m) = sum over u < 2 ^ t of sg t u q * bfly f r (p * 2 ^ t + u) m.
  With r = 0, t = 6 this reads stages 0..5 (inside a block of 64), with r = 6, t = 6 stages 6..11 (across blocks).
-/
import proofs.«177755_j40243843564261_2_alg».proof.Proof.Spec

noncomputable section

namespace Cert.Wht

open Idealize.ShloMosaic Idealize.ShloMosaic.ValueIdx

/-! ## The sign pattern, one binary digit at a time -/

theorem sylvB_lt_lt (t a b : ℕ) (ha : a < 2 ^ t) (hb : b < 2 ^ t) :
    sylvB (t + 1) a b = sylvB t a b := by
  simp [sylvB, Nat.div_eq_of_lt ha, Nat.mod_eq_of_lt ha, Nat.mod_eq_of_lt hb]

theorem sylvB_ge_lt (t a b : ℕ) (ha : a < 2 ^ t) (hb : b < 2 ^ t) :
    sylvB (t + 1) (2 ^ t + a) b = sylvB t a b := by
  have hp : 0 < 2 ^ t := Nat.two_pow_pos t
  simp [sylvB, Nat.div_eq_of_lt hb, Nat.mod_eq_of_lt ha, Nat.mod_eq_of_lt hb]

theorem sylvB_lt_ge (t a b : ℕ) (ha : a < 2 ^ t) (hb : b < 2 ^ t) :
    sylvB (t + 1) a (2 ^ t + b) = sylvB t a b := by
  have hp : 0 < 2 ^ t := Nat.two_pow_pos t
  simp [sylvB, Nat.div_eq_of_lt ha, Nat.mod_eq_of_lt ha, Nat.mod_eq_of_lt hb]

theorem sylvB_ge_ge (t a b : ℕ) (ha : a < 2 ^ t) (hb : b < 2 ^ t) :
    sylvB (t + 1) (2 ^ t + a) (2 ^ t + b) = !sylvB t a b := by
  have hp : 0 < 2 ^ t := Nat.two_pow_pos t
  simp [sylvB, Nat.add_div_left _ hp, Nat.div_eq_of_lt ha, Nat.div_eq_of_lt hb, Nat.mod_eq_of_lt ha,
    Nat.mod_eq_of_lt hb]

/-- The sign on `t` binary digits, as a real number. -/
def sg (t a b : ℕ) : ℝ := if sylvB t a b then -1 else 1

theorem sylv_eq_sg (a b : ℕ) : sylv a b = sg 6 a b := rfl

theorem sg_zero (a b : ℕ) : sg 0 a b = 1 := by simp [sg, sylvB]

theorem sg_lt_lt (t a b : ℕ) (ha : a < 2 ^ t) (hb : b < 2 ^ t) : sg (t + 1) a b = sg t a b := by
  simp only [sg, sylvB_lt_lt t a b ha hb]

theorem sg_ge_lt (t a b : ℕ) (ha : a < 2 ^ t) (hb : b < 2 ^ t) : sg (t + 1) (2 ^ t + a) b = sg t a b := by
  simp only [sg, sylvB_ge_lt t a b ha hb]

theorem sg_lt_ge (t a b : ℕ) (ha : a < 2 ^ t) (hb : b < 2 ^ t) : sg (t + 1) a (2 ^ t + b) = sg t a b := by
  simp only [sg, sylvB_lt_ge t a b ha hb]

theorem sg_ge_ge (t a b : ℕ) (ha : a < 2 ^ t) (hb : b < 2 ^ t) :
    sg (t + 1) (2 ^ t + a) (2 ^ t + b) = -sg t a b := by
  simp only [sg, sylvB_ge_ge t a b ha hb]
  cases sylvB t a b <;> simp

/-! ## The butterfly stages -/

/-- A two-digit number in base `K` with leading digit below `T` is below `T * K`. -/
theorem digits_lt (T K q m : ℕ) (hq : q < T) (hm : m < K) : q * K + m < T * K := by
  calc q * K + m < q * K + K := by omega
    _ = (q + 1) * K := by ring
    _ ≤ T * K := Nat.mul_le_mul_right K hq

/-- Stages `r .. r + t - 1` of the transform: they multiply by the sign matrix on `t` digits, acting on the
    leading digits of the position while the trailing `r` digits `m` ride along. -/
theorem bfly_add (f : ℕ → ℝ) (r t : ℕ) : ∀ p q m : ℕ, q < 2 ^ t → m < 2 ^ r →
    bfly f (r + t) p (q * 2 ^ r + m) = ∑ u ∈ Finset.range (2 ^ t), sg t u q * bfly f r (p * 2 ^ t + u) m := by
  induction t with
  | zero =>
    intro p q m hq hm
    have hq0 : q = 0 := by simpa using hq
    subst hq0
    simp [sg_zero]
  | succ t ih =>
    intro p q m hq hm
    have hstep : bfly f (r + (t + 1)) p (q * 2 ^ r + m)
        = bstep (2 ^ (r + t)) (bfly f (r + t)) p (q * 2 ^ r + m) := rfl
    have hpow : 2 ^ (r + t) = 2 ^ t * 2 ^ r := by rw [pow_add, mul_comm]
    have hsplit : (2 : ℕ) ^ (t + 1) = 2 ^ t + 2 ^ t := by rw [pow_succ]; ring
    rw [hstep, hsplit, Finset.sum_range_add]
    have e0 : ∀ u : ℕ, p * (2 ^ t + 2 ^ t) + u = (2 * p) * 2 ^ t + u := fun u => by ring
    have e1 : ∀ u : ℕ, p * (2 ^ t + 2 ^ t) + (2 ^ t + u) = (2 * p + 1) * 2 ^ t + u := fun u => by ring
    by_cases hq' : q < 2 ^ t
    · -- the leading digit of q is 0: the sum of the two half rows
      have hlt : q * 2 ^ r + m < 2 ^ (r + t) := by rw [hpow]; exact digits_lt _ _ _ _ hq' hm
      unfold bstep
      rw [if_pos hlt, ih (2 * p) q m hq' hm, ih (2 * p + 1) q m hq' hm]
      congr 1
      · refine Finset.sum_congr rfl fun u hu => ?_
        rw [sg_lt_lt t u q (Finset.mem_range.mp hu) hq', e0]
      · refine Finset.sum_congr rfl fun u hu => ?_
        rw [sg_ge_lt t u q (Finset.mem_range.mp hu) hq', e1]
    · -- the leading digit of q is 1: the difference of the two half rows
      obtain ⟨q0, rfl⟩ := Nat.exists_eq_add_of_le (Nat.le_of_not_lt hq')
      have hq0 : q0 < 2 ^ t := by omega
      have hge : ¬ (2 ^ t + q0) * 2 ^ r + m < 2 ^ (r + t) := by
        rw [hpow]; intro hcon
        have : (2 ^ t + q0) * 2 ^ r = 2 ^ t * 2 ^ r + q0 * 2 ^ r := by ring
        omega
      have hsub : (2 ^ t + q0) * 2 ^ r + m - 2 ^ (r + t) = q0 * 2 ^ r + m := by
        rw [hpow]
        have : (2 ^ t + q0) * 2 ^ r = 2 ^ t * 2 ^ r + q0 * 2 ^ r := by ring
        omega
      unfold bstep
      rw [if_neg hge, hsub, ih (2 * p) q0 m hq0 hm, ih (2 * p + 1) q0 m hq0 hm, sub_eq_add_neg,
        ← Finset.sum_neg_distrib]
      congr 1
      · refine Finset.sum_congr rfl fun u hu => ?_
        rw [sg_lt_ge t u q0 (Finset.mem_range.mp hu) hq0, e0]
      · refine Finset.sum_congr rfl fun u hu => ?_
        rw [sg_ge_ge t u q0 (Finset.mem_range.mp hu) hq0, e1, neg_mul]

/-- Twelve stages on a row read as a 64 x 64 matrix: the Sylvester matrix on both sides. -/
theorem bfly_twelve (f : ℕ → ℝ) (l m : ℕ) (hl : l < 64) (hm : m < 64) :
    bfly f 12 0 (l * 64 + m)
      = ∑ i ∈ Finset.range 64, sylv i l * ∑ j ∈ Finset.range 64, sylv j m * f (i * 64 + j) := by
  have h1 := bfly_add f 6 6 0 l m (by norm_num; exact hl) (by norm_num; exact hm)
  have h2 : ∀ i : ℕ, bfly f 6 i m = ∑ j ∈ Finset.range 64, sylv j m * f (i * 64 + j) := by
    intro i
    have := bfly_add f 0 6 i m 0 (by norm_num; exact hm) (by norm_num)
    simpa [bfly, sylv_eq_sg] using this
  norm_num at h1
  rw [h1]
  refine Finset.sum_congr rfl fun i _ => ?_
  rw [h2 i, sylv_eq_sg]

/-! ## The row as a 64 x 64 matrix, and the two-sided product -/

/-- Inside the row, position `64 i + j` of `rowOf` is the array's entry at `pos i j`. -/
theorem rowOf_pos (xr : SX.Idx → ℝ) (a : Fin 4) (s : Fin 2048) (i j : Fin 64) :
    rowOf xr a s (i.val * 64 + j.val) = xr (ix3 a s (pos i j)) := by
  have h : i.val * 64 + j.val < 4096 := by omega
  have hp : (⟨i.val * 64 + j.val, h⟩ : Fin 4096) = pos i j :=
    Fin.ext (by show i.val * 64 + j.val = 64 * i.val + j.val; omega)
  unfold rowOf
  rw [dif_pos h, hp]

/-- The two-sided product with the Sylvester matrix scaled by 1/8 on each side is the transform scaled by 1/64. -/
theorem real_twoSided (xr : SX.Idx → ℝ) (a : Fin 4) (s : Fin 2048) (l m : Fin 64) :
    ∑ i : Fin 64, (∑ jj : Fin 64, xr (ix3 a s (pos i jj)) * (sylv jj.val m.val * (1 / 8)))
        * (sylv i.val l.val * (1 / 8))
      = bfly (rowOf xr a s) 12 0 (l.val * 64 + m.val) * (1 / 64) := by
  rw [bfly_twelve _ _ _ l.isLt m.isLt]
  simp only [Finset.sum_range, Finset.sum_mul, Finset.mul_sum]
  refine Finset.sum_congr rfl fun i _ => ?_
  refine Finset.sum_congr rfl fun jj _ => ?_
  rw [rowOf_pos]
  ring

/-- The coercion of a finite real sum into the extended reals is the sum of the coercions. -/
theorem ereal_coe_sum {ι : Type*} (s : Finset ι) (g : ι → ℝ) :
    ∑ i ∈ s, ((g i : ℝ) : EReal) = ((∑ i ∈ s, g i : ℝ) : EReal) := by
  classical
  refine Finset.induction_on s (by simp) ?_
  intro a s ha ih
  rw [Finset.sum_insert ha, Finset.sum_insert ha, EReal.coe_add, ih]

theorem twoSided_eq_bfly (xr : SX.Idx → ℝ) (h : SH.Idx → EReal)
    (hh : ∀ a b : Fin 64, h (ix2 a b) = ((sylv a.val b.val : ℝ) : EReal)) (j : SX.Idx) :
    twoSided (fun i => ((xr i : ℝ) : EReal)) h (((1 / 8 : ℝ) : ℝ) : EReal) j
      = ((bfly (rowOf xr (j 0) (j 1)) 12 0 (j 2).val * (1 / 64) : ℝ) : EReal) := by
  have hn : (j 2).val = (hi (j 2)).val * 64 + (lo (j 2)).val := by
    show (j 2).val = (j 2).val / 64 * 64 + (j 2).val % 64
    omega
  rw [hn, ← real_twoSided xr (j 0) (j 1) (hi (j 2)) (lo (j 2))]
  unfold twoSided
  simp only [hh, ← EReal.coe_mul, ereal_coe_sum]

end Cert.Wht

end
-- ==== Proof.lean ====
/-
  The kernel against the fast Walsh-Hadamard transform, over the extended reals.

  A row of 4096 numbers is a 64 x 64 matrix X, entry (i, j) at position 64 i + j.  The kernel is given the
  Sylvester matrix H of order 64 (entries 1 and -1; entry (a, b) is -1 when a and b share an odd number of binary
  digits) and forms (H/8) X (H/8), one matrix product after the other: entry (l, m), written at position 64 l + m,
  is the sum over i of (the sum over j of X(i, j) (H(j, m)/8)) (H(i, l)/8).  The reference runs the twelve
  butterfly stages of the transform on the row and scales by 1/64.  Stage s pairs positions that differ in binary
  digit s, so stages 0 to 5 transform each block of 64 positions by H and stages 6 to 11 transform across the blocks
  by H: the row's transform at position 64 l + m is the sum over i and j of H(l, i) H(m, j) X(i, j), and H is
  symmetric.  Moving the two factors 1/8 out of the sums needs every entry to be a real number, which is what the
  precondition says.  A change of float format is the identity here, so the kernel's roundings do not appear.

  Proof/Spec.lean states both sides as functions; Proof/KernelRun.lean reads the kernel's run as the two-sided
  product; Proof/RefValue.lean reads the reference's run as the butterfly; Proof/Algebra.lean is the law between
  them over the reals; Proof/Matrix.lean compares the printed matrix with the Sylvester matrix; Proof/Finite.lean
  turns the precondition into real entries.
-/
import proofs.«177755_j40243843564261_2_alg».proof.Defs
import proofs.«177755_j40243843564261_2_alg».proof.Proof.Gen.Kernel
import proofs.«177755_j40243843564261_2_alg».proof.Proof.Gen.Kernel.Skeleton
import proofs.«177755_j40243843564261_2_alg».proof.Proof.Gen.Kernel.Launch
import proofs.«177755_j40243843564261_2_alg».proof.Proof.Gen.Kernel.Points
import proofs.«177755_j40243843564261_2_alg».proof.Proof.Gen.Kernel.Frame
import proofs.«177755_j40243843564261_2_alg».proof.Proof.Gen.KernelIdeal
import proofs.«177755_j40243843564261_2_alg».proof.Proof.Gen.KernelIdeal.Skeleton
import proofs.«177755_j40243843564261_2_alg».proof.Proof.Gen.KernelIdeal.Launch
import proofs.«177755_j40243843564261_2_alg».proof.Proof.Gen.KernelIdeal.Points
import proofs.«177755_j40243843564261_2_alg».proof.Proof.Gen.KernelIdeal.Frame
import proofs.«177755_j40243843564261_2_alg».proof.Proof.Gen.ReferenceIdeal
import proofs.«177755_j40243843564261_2_alg».proof.Proof.Gen.Pre_finite_inputs
import proofs.«177755_j40243843564261_2_alg».proof.Proof.KernelRun
import proofs.«177755_j40243843564261_2_alg».proof.Proof.RefValue
import proofs.«177755_j40243843564261_2_alg».proof.Proof.Finite
import proofs.«177755_j40243843564261_2_alg».proof.Proof.Matrix
import proofs.«177755_j40243843564261_2_alg».proof.Proof.Algebra
import Idealize.ShloMosaic.Adequacy
import Idealize.ShloMosaic.Init

noncomputable section

namespace Cert.Proof

open Idealize.ShloMosaic Idealize.SL.Sem Idealize.ShloMosaic.ValueIdx

/-- The kernel as printed runs and keeps its argument. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its argument: its run with the result dropped. -/
theorem frame_ri : Cert.frame_ReferenceIdeal := fun m ρ _ =>
  (θ_run Cert.ReferenceIdeal.defs _ _).mono (fun _ h c => (h c).2) (Cert.Wht.RefRun.run (F := Ideal) m ρ)

/-- The idealization rewrote nothing. -/
theorem preserves : Cert.preserves_Kernel_KernelIdeal := trivial

/-- The two results are one array: the kernel's two-sided product with the printed matrix, and the reference's
    butterfly scaled by 1/64, of an argument whose entries are real numbers. -/
theorem algebraic : Cert.algebraic_KernelIdeal_ReferenceIdeal := by
  intro m ρ m' ρ' hpre hagree
  refine ⟨_, Cert.KernelIdeal.HValue.run m ρ, ?_⟩
  refine (θ_run Cert.ReferenceIdeal.defs _ _).mono (fun _ h c => ⟨(h c).1.trans ?_, (h c).2⟩)
    (Cert.Wht.RefRun.run (F := Ideal) m' ρ')
  obtain ⟨xr, hxr⟩ := Cert.Wht.real_of_pre _ (hpre c)
  have hx : ∀ i : Cert.Wht.SX.Idx,
      (StableHlo.launchContents m' c (Proc.devRef .tc Cert.ReferenceIdeal.main_arg0) i : EReal) = ((xr i : ℝ) : EReal) :=
    fun i => (congrFun (hagree c) i).trans (hxr i)
  funext j
  refine (Cert.Wht.Ref.result_apply _ xr hx j).trans ?_
  have hm : (m ((c.tc : Thread Cert.KernelIdeal.nD Cert.KernelIdeal.τ).loc Cert.KernelIdeal.main_arg0) : Cert.Wht.SX.Idx → EReal)
      = fun i => ((xr i : ℝ) : EReal) := funext hxr
  rw [hm, Cert.Wht.ofBits_eighth]
  exact (Cert.Wht.twoSided_eq_bfly xr _ (fun a b => Cert.Wht.matrix_entry a b) j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
